-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x3x8192 : Shape := ⟨3, ![4, 3, 8192]⟩
abbrev S_ : Shape := ⟨0, ![]⟩
abbrev S4x1x8192 : Shape := ⟨3, ![4, 1, 8192]⟩
abbrev S1x1024x3 : Shape := ⟨3, ![1, 1024, 3]⟩
abbrev S1x3x512 : Shape := ⟨3, ![1, 3, 512]⟩
abbrev S1x1x8192 : Shape := ⟨3, ![1, 1, 8192]⟩
abbrev S1024x3 : Shape := ⟨2, ![1024, 3]⟩
abbrev S3x512 : Shape := ⟨2, ![3, 512]⟩
abbrev S1024 : Shape := ⟨1, ![1024]⟩
abbrev S1024x1 : Shape := ⟨2, ![1024, 1]⟩
abbrev S512 : Shape := ⟨1, ![512]⟩
abbrev S1x512 : Shape := ⟨2, ![1, 512]⟩
abbrev S1024x512 : Shape := ⟨2, ![1024, 512]⟩
abbrev S1x1x1024 : Shape := ⟨3, ![1, 1, 1024]⟩
abbrev S1x1x512 : Shape := ⟨3, ![1, 1, 512]⟩
abbrev S4x8192 : Shape := ⟨2, ![4, 8192]⟩

abbrev nBuf : Space → Nat
  | .hbm => 25
  | .vmem => 8
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x3x8192, .f32⟩
  | .hbm, ⟨3, _⟩ => ⟨S_, .f32⟩
  | .hbm, ⟨4, _⟩ => ⟨S4x3x8192, .f32⟩
  | .hbm, ⟨5, _⟩ => ⟨S4x3x8192, .f32⟩
  | .hbm, ⟨6, _⟩ => ⟨S4x1x8192, .f32⟩
  | .hbm, ⟨7, _⟩ => ⟨S4x1x8192, .f32⟩
  | .hbm, ⟨8, _⟩ => ⟨S4x8192, .f32⟩
  | .hbm, ⟨9, _⟩ => ⟨S_, .f32⟩
  | .hbm, ⟨10, _⟩ => ⟨S4x8192, .f32⟩
  | .hbm, ⟨11, _⟩ => ⟨S4x8192, .f32⟩
  | .hbm, ⟨12, _⟩ => ⟨S4x8192, .f32⟩
  | .hbm, ⟨13, _⟩ => ⟨S_, .f32⟩
  | .hbm, ⟨14, _⟩ => ⟨S4x8192, .f32⟩
  | .hbm, ⟨15, _⟩ => ⟨S4x8192, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x3x512, .f32⟩
  | .local _ .vmem, ⟨3, _⟩ => ⟨S1x3x512, .f32⟩
  | .local _ .vmem, ⟨4, _⟩ => ⟨S1x1x8192, .f32⟩
  | .local _ .vmem, ⟨5, _⟩ => ⟨S1x1x8192, .f32⟩
  | .local _ .vmem, ⟨6, _⟩ => ⟨S1x1x8192, .f32⟩
  | .local _ .vmem, ⟨7, _⟩ => ⟨S1x1x8192, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_cst_4 : Ref sig .tc := ⟨.hbm, 20, rfl⟩
abbrev main_v12 : Ref sig .tc := ⟨.hbm, 21, rfl⟩
abbrev main_cst_5 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 8, 16], ![false, false, false]⟩

def k0_mult1 (i : grid0.Coords) : BitVec 32 :=
  let arg1 : BitVec 32 := BitVec.ofNat 32 (i 1).val
  let c1024_i32 : BitVec 32 := 1024#32
  let v40 : BitVec 32 := Scalar.muli arg1 c1024_i32
  v40
def k0_mult2 (i : grid0.Coords) : BitVec 32 :=
  let arg2 : BitVec 32 := BitVec.ofNat 32 (i 2).val
  let c512_i32 : BitVec 32 := 512#32
  let v42 : BitVec 32 := Scalar.muli arg2 c512_i32
  v42
def k0_off1 (i : grid0.Coords) : Fin 3 → Nat :=
  let c0_11 : Index := 0#32
  let c0_12 : Index := 0#32
  let arg1 : BitVec 32 := BitVec.ofNat 32 (i 1).val
  let c1024_i32 : BitVec 32 := 1024#32
  let v40 : BitVec 32 := Scalar.muli arg1 c1024_i32
  let v41 : BitVec 32 := v40
  let v44 : Index := Scalar.indexCast v41
  ![0, 0, v44.toNat]
def k0_off2 (i : grid0.Coords) : Fin 3 → Nat :=
  let c0_15 : Index := 0#32
  let c0_16 : Index := 0#32
  let arg2 : BitVec 32 := BitVec.ofNat 32 (i 2).val
  let c512_i32 : BitVec 32 := 512#32
  let v42 : BitVec 32 := Scalar.muli arg2 c512_i32
  let v43 : BitVec 32 := v42
  let v52 : Index := Scalar.indexCast v43
  ![0, 0, v52.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  transposes_S4x8192x3_S4x3x8192_0_2_1 : S4x8192x3.Transposes [0, 2, 1] S4x3x8192
  bcast_S_S4x3x8192 : S_.BroadcastsInDim S4x3x8192 (![] : Fin 0 → Fin S4x3x8192.rank)
  inb_S1x1x8192_S1x1x8192_0_0_0 : ∀ a, (![0, 0, 0] : Fin 3 → Nat) a + S1x1x8192.size a ≤ S1x1x8192.size a
  h_S1x1x8192 : 0 < S1x1x8192.numel
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S1x3x512_S1x3x512_0_0_0 : ∀ a, (![0, 0, 0] : Fin 3 → Nat) a + S1x3x512.size a ≤ S1x3x512.size a
  h_S1x3x512 : 0 < S1x3x512.numel
  shapeCasts_S1x3x512_S3x512 : S1x3x512.ShapeCasts S3x512
  reduces_S1024x3_S1024 : S1024x3.Reduces [1] S1024
  shapeCasts_S1024_S1024x1 : S1024.ShapeCasts S1024x1
  reduces_S3x512_S512 : S3x512.Reduces [0] S512
  shapeCasts_S512_S1x512 : S512.ShapeCasts S1x512
  slices_S1024x3_o0_0_S1024x1 : S1024x3.Slices ![0, 0] S1024x1
  slices_S3x512_o0_0_S1x512 : S3x512.Slices ![0, 0] S1x512
  broadcasts_S1024x1_S1024x512 : S1024x1.Broadcasts S1024x512
  broadcasts_S1x512_S1024x512 : S1x512.Broadcasts S1024x512
  slices_S1024x3_o0_1_S1024x1 : S1024x3.Slices ![0, 1] S1024x1
  slices_S3x512_o1_0_S1x512 : S3x512.Slices ![1, 0] S1x512
  slices_S1024x3_o0_2_S1024x1 : S1024x3.Slices ![0, 2] S1024x1
  slices_S3x512_o2_0_S1x512 : S3x512.Slices ![2, 0] S1x512
  reduces_S1024x512_S1024 : S1024x512.Reduces [1] S1024
  reduces_S1024x512_S512 : S1024x512.Reduces [0] S512
  h_S1x1x1024 : 0 < S1x1x1024.numel
  shapeCasts_S1x1x1024_S1024 : S1x1x1024.ShapeCasts S1024
  shapeCasts_S1024_S1x1x1024 : S1024.ShapeCasts S1x1x1024
  h_S1x1x512 : 0 < S1x1x512.numel
  shapeCasts_S1x1x512_S512 : S1x1x512.ShapeCasts S512
  shapeCasts_S512_S1x1x512 : S512.ShapeCasts S1x1x512
  shapeCasts_S4x1x8192_S4x8192 : S4x1x8192.ShapeCasts S4x8192
  bcast_S_S4x8192 : S_.BroadcastsInDim S4x8192 (![] : Fin 0 → Fin S4x8192.rank)
  reducesTo_S4x8192_S_d0_1 : S4x8192.ReducesTo [0, 1] S_
  h_S_ : 0 < S_.numel
  hrank0 : 0 < grid0.rank
  k0_mult1_dvd : ∀ i : grid0.Coords, 1024 ∣ (k0_mult1 i).toNat
  k0_mult2_dvd : ∀ i : grid0.Coords, 512 ∣ (k0_mult2 i).toNat
  k0_off1_inb : ∀ i : grid0.Coords, ∀ a, (k0_off1 i) a + S1x1x1024.size a ≤ S1x1x8192.size a
  k0_off2_inb : ∀ i : grid0.Coords, ∀ a, (k0_off2 i) a + S1x1x512.size a ≤ S1x1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S4x8192x3.size a
  hwx0_0 : ∀ i : grid0.Coords, EltTy.bits .f32 = 32 ∨ (Rect.block (s := S4x8192x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x512.size a ≤ S4x3x8192.size a
  hwx0_1 : ∀ i : grid0.Coords, EltTy.bits .f32 = 32 ∨ (Rect.block (s := S4x3x8192) S1x3x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x8192.size a ≤ S4x1x8192.size a
  hwx0_2 : ∀ i : grid0.Coords, EltTy.bits .f32 = 32 ∨ (Rect.block (s := S4x1x8192) S1x1x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x8192.size a ≤ S4x1x8192.size a
  hwx0_3 : ∀ i : grid0.Coords, EltTy.bits .f32 = 32 ∨ (Rect.block (s := S4x1x8192) S1x1x8192.size (cc0_transform_3 i) (hinb0_3 i)).WholeWords (EltTy.packing .f32)

variable [Facts₀]

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x3x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S1x1x8192.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S1x1x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 34
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192x8192, .f32⟩
  | .hbm, ⟨20, _⟩ => ⟨S4x8192x8192, .f32⟩
  | .hbm, ⟨21, _⟩ => ⟨S_, .f32⟩
  | .hbm, ⟨22, _⟩ => ⟨S4x8192, .f32⟩
  | .hbm, ⟨23, _⟩ => ⟨S_, .f32⟩
  | .hbm, ⟨24, _⟩ => ⟨S4x8192, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_cst_7 : Ref sig .tc := ⟨.hbm, 29, rfl⟩
abbrev main_v19 : Ref sig .tc := ⟨.hbm, 30, rfl⟩
abbrev main_cst_8 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S_d0_1 : S4x8192.ReducesTo [0, 1] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.BodyRun.lean ====
/-
  The kernel body run on whole staging buffers, in its two control cases: what each running-minimum buffer holds
  afterwards, as one explicit function of the two input blocks and of what the buffer held before.
-/
import proofs.«160425_j23373212024987_2_alg».proof.Proof.Gen.KernelIdeal.Frame
import proofs.«160425_j23373212024987_2_alg».proof.Proof.Gen.KernelIdeal.Skeleton
import Idealize.ShloMosaic.Lib.WritesUnit
import Idealize.ShloMosaic.Lib.Pipeline.Value

set_option maxRecDepth 16384

noncomputable section

namespace Cert.KernelIdeal.Body

open Cert.KernelIdeal Cert.KernelIdeal.Gen Cert.KernelIdeal.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One tile's update of a running minimum

The running row minima live in a buffer of 8192 entries; a tile touches the 1024 of its row tile, replacing each by the
minimum of what was there and the tile's row minimum, and leaves the others. Likewise the column minima, 512 at a time. -/

theorem zeros3 : (![0, 0, 0] : Fin 3 → ℕ) = fun _ => 0 := by funext a; fin_cases a <;> rfl

/-- The row minima after a tile: `v38` the tile's 1024 row minima, `prev` what the buffer held. -/
def updRows (i : grid0.Coords) (v38 : FVec F S1024 .f32) (prev : Vec F S1x1x8192 .f32) : Vec F S1x1x8192 .f32 := fun y =>
  if h : ∀ a, k0_off1 i a ≤ (y a).val ∧ (y a).val < k0_off1 i a + S1x1x1024.size a then
    k0_pay1 v38 (View.ld prev (Rect.unit (s := S1x1x8192) (k0_off1 i) S1x1x1024.size (Facts₀.k0_off1_inb i)))
      (Rect.unitLocal (s := S1x1x8192) (off := k0_off1 i) (size := S1x1x1024.size) y h)
  else prev y

/-- The column minima after a tile: `v39` the tile's 512 column minima. -/
def updCols (i : grid0.Coords) (v39 : FVec F S512 .f32) (prev : Vec F S1x1x8192 .f32) : Vec F S1x1x8192 .f32 := fun y =>
  if h : ∀ a, k0_off2 i a ≤ (y a).val ∧ (y a).val < k0_off2 i a + S1x1x512.size a then
    k0_pay2 v39 (View.ld prev (Rect.unit (s := S1x1x8192) (k0_off2 i) S1x1x512.size (Facts₀.k0_off2_inb i)))
      (Rect.unitLocal (s := S1x1x8192) (off := k0_off2 i) (size := S1x1x512.size) y h)
  else prev y

section Geometry

variable (M : Memref sig .tc .vmem S1x1x8192 .f32) (hM : M.IsWhole)

/-- A store of the whole block, read back, is its payload. -/
theorem read_fill (f : M.view.ty.Contents (Elt F)) (P : Vec F S1x1x8192 .f32) :
    M.view.read (Elt F) (M.view.writes (Elt F) f
      [⟨Rect.unit (s := S1x1x8192) ![0, 0, 0] S1x1x8192.size Facts₀.inb_S1x1x8192_S1x1x8192_0_0_0, P⟩]) = P := by
  funext y
  exact View.read_writes_cons_unit_of_mem M.view f Facts₀.inb_S1x1x8192_S1x1x8192_0_0_0 P [] y y rfl (fun a => by
    have h0 : (![0, 0, 0] : Fin 3 → ℕ) a = 0 := congrFun zeros3 a
    rw [h0, Nat.zero_add])

/-- One tile's store of row minima over known contents. -/
theorem read_store_rows (i : grid0.Coords) (v38 : FVec F S1024 .f32) (prev : Vec F S1x1x8192 .f32) :
    M.view.read (Elt F) (M.view.writes (Elt F) (hM.unread prev)
      [⟨Rect.unit (s := S1x1x8192) (k0_off1 i) S1x1x1024.size (Facts₀.k0_off1_inb i),
        k0_pay1 v38 (View.readAt (Elt F) M.view
          (Rect.unit (s := S1x1x8192) (k0_off1 i) S1x1x1024.size (Facts₀.k0_off1_inb i)).toLoadRect (hM.unread prev))⟩])
      = updRows i v38 prev := by
  funext y
  rw [View.read_writes_cons_unit M.view (hM.unread prev) (Facts₀.k0_off1_inb i) _ [] y rfl]
  unfold updRows
  simp only [View.writes_nil, View.readAt_eq_ld, hM.read_unread]

/-- The same after the whole block was filled with `P`. -/
theorem read_fill_store_rows (f : M.view.ty.Contents (Elt F)) (i : grid0.Coords) (v38 : FVec F S1024 .f32) (P : Vec F S1x1x8192 .f32) :
    M.view.read (Elt F) (M.view.writes (Elt F) f
      [⟨Rect.unit (s := S1x1x8192) (k0_off1 i) S1x1x1024.size (Facts₀.k0_off1_inb i),
        k0_pay1 v38 (View.readAt (Elt F) M.view
          (Rect.unit (s := S1x1x8192) (k0_off1 i) S1x1x1024.size (Facts₀.k0_off1_inb i)).toLoadRect
          (M.view.writes (Elt F) f [⟨Rect.unit (s := S1x1x8192) ![0, 0, 0] S1x1x8192.size Facts₀.inb_S1x1x8192_S1x1x8192_0_0_0, P⟩]))⟩,
       ⟨Rect.unit (s := S1x1x8192) ![0, 0, 0] S1x1x8192.size Facts₀.inb_S1x1x8192_S1x1x8192_0_0_0, P⟩])
      = updRows i v38 P := by
  funext y
  rw [View.read_writes_cons_unit M.view f (Facts₀.k0_off1_inb i) _ _ y rfl]
  unfold updRows
  simp only [View.readAt_eq_ld, read_fill M]

/-- One tile's store of column minima over known contents. -/
theorem read_store_cols (i : grid0.Coords) (v39 : FVec F S512 .f32) (prev : Vec F S1x1x8192 .f32) :
    M.view.read (Elt F) (M.view.writes (Elt F) (hM.unread prev)
      [⟨Rect.unit (s := S1x1x8192) (k0_off2 i) S1x1x512.size (Facts₀.k0_off2_inb i),
        k0_pay2 v39 (View.readAt (Elt F) M.view
          (Rect.unit (s := S1x1x8192) (k0_off2 i) S1x1x512.size (Facts₀.k0_off2_inb i)).toLoadRect (hM.unread prev))⟩])
      = updCols i v39 prev := by
  funext y
  rw [View.read_writes_cons_unit M.view (hM.unread prev) (Facts₀.k0_off2_inb i) _ [] y rfl]
  unfold updCols
  simp only [View.writes_nil, View.readAt_eq_ld, hM.read_unread]

/-- The same after the whole block was filled with `P`. -/
theorem read_fill_store_cols (f : M.view.ty.Contents (Elt F)) (i : grid0.Coords) (v39 : FVec F S512 .f32) (P : Vec F S1x1x8192 .f32) :
    M.view.read (Elt F) (M.view.writes (Elt F) f
      [⟨Rect.unit (s := S1x1x8192) (k0_off2 i) S1x1x512.size (Facts₀.k0_off2_inb i),
        k0_pay2 v39 (View.readAt (Elt F) M.view
          (Rect.unit (s := S1x1x8192) (k0_off2 i) S1x1x512.size (Facts₀.k0_off2_inb i)).toLoadRect
          (M.view.writes (Elt F) f [⟨Rect.unit (s := S1x1x8192) ![0, 0, 0] S1x1x8192.size Facts₀.inb_S1x1x8192_S1x1x8192_0_0_0, P⟩]))⟩,
       ⟨Rect.unit (s := S1x1x8192) ![0, 0, 0] S1x1x8192.size Facts₀.inb_S1x1x8192_S1x1x8192_0_0_0, P⟩])
      = updCols i v39 P := by
  funext y
  rw [View.read_writes_cons_unit M.view f (Facts₀.k0_off2_inb i) _ _ y rfl]
  unfold updCols
  simp only [View.readAt_eq_ld, read_fill M]

end Geometry

/-- The tile's minima are computed from the two input blocks as loaded whole. -/
theorem loaded_blocks (arg3 : Memref sig .tc .vmem S1x1024x3 .f32) (harg3 : arg3.IsWhole)
    (arg4 : Memref sig .tc .vmem S1x3x512 .f32) (harg4 : arg4.IsWhole) (x0 : Vec F S1x1024x3 .f32) (x1 : Vec F S1x3x512 .f32) :
    View.readAt (Elt F) arg3.view (Rect.unit (s := S1x1024x3) ![0, 0, 0] S1x1024x3.size Facts₀.inb_S1x1024x3_S1x1024x3_0_0_0).toLoadRect (harg3.unread x0) = x0
    ∧ View.readAt (Elt F) arg4.view (Rect.unit (s := S1x3x512) ![0, 0, 0] S1x3x512.size Facts₀.inb_S1x3x512_S1x3x512_0_0_0).toLoadRect (harg4.unread x1) = x1 := by
  constructor
  · rw [View.readAt_eq_ld, harg3.read_unread, View.ld_unit_zero zeros3]
  · rw [View.readAt_eq_ld, harg4.read_unread, View.ld_unit_zero zeros3]

/-! ## The body's branch: the first tile of a batch resets both running minima -/

/-- The body's one condition, from the grid coordinates: row tile `0` and column tile `0`. -/
abbrev resets (i : grid0.Coords) : Prop :=
  (Scalar.cmpi .ne (Scalar.extui (Scalar.andi (Scalar.cmpi .eq (BitVec.ofNat 32 (i 1).val) 0#32)
    (Scalar.cmpi .eq (BitVec.ofNat 32 (i 2).val) 0#32))) 0#32) = 1#1

/-- It holds exactly at the first of each batch's 128 tiles. -/
theorem resets_iff : ∀ t : Fin cfg0.N, resets (grid0.coords t) ↔ t.val % 128 = 0 :=
  (by decide +kernel : ∀ t : Fin grid0.N, resets (grid0.coords t) ↔ t.val % 128 = 0)

/-! ## The body on whole staging buffers -/

set_option maxHeartbeats 1000000 in
/-- AT A RESETTING TILE: from the two input blocks and ANY contents of the two running-minimum buffers, the body ends with
    the inputs as they were and each running minimum at the tile's update of the all-`+∞` fill. -/
theorem runReset (c : Dev nD) (i : grid0.Coords) (arg3 : Memref sig .tc .vmem S1x1024x3 .f32) (harg3 : arg3.IsWhole)
    (arg4 : Memref sig .tc .vmem S1x3x512 .f32) (harg4 : arg4.IsWhole) (arg5 : Memref sig .tc .vmem S1x1x8192 .f32) (harg5 : arg5.IsWhole)
    (arg6 : Memref sig .tc .vmem S1x1x8192 .f32) (harg6 : arg6.IsWhole) (hc : resets i)
    (x0 : Vec F S1x1024x3 .f32) (x1 : Vec F S1x3x512 .f32) (d2 d3 : Vec F S1x1x8192 .f32)
    (E : Set ℕ) (K : PUnit → sProp 𝕄) :
    iprop(owns (c : Thread nD τ) arg3 fullShare x0 ∗ owns (c : Thread nD τ) arg4 fullShare x1
        ∗ owns (c : Thread nD τ) arg5 fullShare d2 ∗ owns (c : Thread nD τ) arg6 fullShare d3
        ∗ (iprop(owns (c : Thread nD τ) arg3 fullShare x0 ∗ owns (c : Thread nD τ) arg4 fullShare x1
            ∗ owns (c : Thread nD τ) arg5 fullShare (updRows i (k0_pay6 x0 x1) (k0_pay3 (F := F)))
            ∗ owns (c : Thread nD τ) arg6 fullShare (updCols i (k0_pay7 x0 x1) (k0_pay4 (F := F)))) -∗ K ⟨⟩))
      ⊢ wp frame (wpE (defs₀ (F := F)) Variants.none c none) E (cc0_kernel i arg3 harg3 arg4 harg4 arg5 harg5 arg6 harg6) K := by
  simp only [cc0_kernel_eq_skeleton]; unfold cc0_kernel_skel
  simp only [k0_part1_eq_skeleton]
  unfold owns
  iintro ⟨⟨%f0, %hf0, H0⟩, ⟨%f1, %hf1, H1⟩, ⟨%f2, %hf2, H2⟩, ⟨%f3, %hf3, H3⟩, Hk⟩
  obtain rfl := harg3.eq_unread hf0; obtain rfl := harg4.eq_unread hf1
  obtain rfl := harg5.eq_unread hf2; obtain rfl := harg6.eq_unread hf3
  sl_exec (disch := first | exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; swap; · iexact H2
    ipureintro
    refine (read_fill_store_rows arg5 _ i _ (k0_pay3 (F := F))).trans ?_
    refine congrArg (fun v => updRows i v (k0_pay3 (F := F))) ?_
    exact (congrArg₂ k0_pay6 (loaded_blocks arg3 harg3 arg4 harg4 x0 x1).1 (loaded_blocks arg3 harg3 arg4 harg4 x0 x1).2)
  iexists _; isplitr; swap; · iexact H3
  ipureintro
  refine (read_fill_store_cols arg6 _ i _ (k0_pay4 (F := F))).trans ?_
  refine congrArg (fun v => updCols i v (k0_pay4 (F := F))) ?_
  exact (congrArg₂ k0_pay7 (loaded_blocks arg3 harg3 arg4 harg4 x0 x1).1 (loaded_blocks arg3 harg3 arg4 harg4 x0 x1).2)

set_option maxHeartbeats 1000000 in
/-- AT ANY OTHER TILE: the running-minimum buffers holding `xo2`, `xo3` end at the tile's update of those. -/
theorem runAcc (c : Dev nD) (i : grid0.Coords) (arg3 : Memref sig .tc .vmem S1x1024x3 .f32) (harg3 : arg3.IsWhole)
    (arg4 : Memref sig .tc .vmem S1x3x512 .f32) (harg4 : arg4.IsWhole) (arg5 : Memref sig .tc .vmem S1x1x8192 .f32) (harg5 : arg5.IsWhole)
    (arg6 : Memref sig .tc .vmem S1x1x8192 .f32) (harg6 : arg6.IsWhole) (hc : ¬resets i)
    (x0 : Vec F S1x1024x3 .f32) (x1 : Vec F S1x3x512 .f32) (xo2 xo3 : Vec F S1x1x8192 .f32)
    (E : Set ℕ) (K : PUnit → sProp 𝕄) :
    iprop(owns (c : Thread nD τ) arg3 fullShare x0 ∗ owns (c : Thread nD τ) arg4 fullShare x1
        ∗ owns (c : Thread nD τ) arg5 fullShare xo2 ∗ owns (c : Thread nD τ) arg6 fullShare xo3
        ∗ (iprop(owns (c : Thread nD τ) arg3 fullShare x0 ∗ owns (c : Thread nD τ) arg4 fullShare x1
            ∗ owns (c : Thread nD τ) arg5 fullShare (updRows i (k0_pay6 x0 x1) xo2)
            ∗ owns (c : Thread nD τ) arg6 fullShare (updCols i (k0_pay7 x0 x1) xo3)) -∗ K ⟨⟩))
      ⊢ wp frame (wpE (defs₀ (F := F)) Variants.none c none) E (cc0_kernel i arg3 harg3 arg4 harg4 arg5 harg5 arg6 harg6) K := by
  simp only [cc0_kernel_eq_skeleton]; unfold cc0_kernel_skel
  simp only [k0_part1_eq_skeleton]
  unfold owns
  iintro ⟨⟨%f0, %hf0, H0⟩, ⟨%f1, %hf1, H1⟩, ⟨%f2, %hf2, H2⟩, ⟨%f3, %hf3, H3⟩, Hk⟩
  obtain rfl := harg3.eq_unread hf0; obtain rfl := harg4.eq_unread hf1
  obtain rfl := harg5.eq_unread hf2; obtain rfl := harg6.eq_unread hf3
  sl_exec (disch := first | exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; swap; · iexact H2
    ipureintro
    refine (read_store_rows arg5 harg5 i _ xo2).trans ?_
    refine congrArg (fun v => updRows i v xo2) ?_
    exact (congrArg₂ k0_pay6 (loaded_blocks arg3 harg3 arg4 harg4 x0 x1).1 (loaded_blocks arg3 harg3 arg4 harg4 x0 x1).2)
  iexists _; isplitr; swap; · iexact H3
  ipureintro
  refine (read_store_cols arg6 harg6 i _ xo3).trans ?_
  refine congrArg (fun v => updCols i v xo3) ?_
  exact (congrArg₂ k0_pay7 (loaded_blocks arg3 harg3 arg4 harg4 x0 x1).1 (loaded_blocks arg3 harg3 arg4 harg4 x0 x1).2)

end Cert.KernelIdeal.Body

end
-- ==== Proof.Body.lean ====
/-
  The frame of the program: the pipeline's proof data with both running-minimum buffers named point by point, the body
  obligation in the body's two control cases, the launch continued by the host lines, and the frame claim.
-/
import proofs.«160425_j23373212024987_2_alg».proof.Proof.BodyRun

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The running minima, point by point

The 512 points are four batches of 128 tiles. At a batch's first tile both buffers are filled with `+∞` and updated;
at every other tile they are updated from what the tile before left. -/

/-- The update of the row minima by the tile at point `t`, from its two input blocks. -/
def rowsAt (c : Dev nD) (t : Fin cfg0.N) (prev : Vec F S1x1x8192 .f32) : Vec F S1x1x8192 .f32 :=
  updRows (grid0.coords t) (k0_pay6 (iblk m c 0 t) (iblk m c 1 t)) prev
/-- The update of the column minima by the tile at point `t`. -/
def colsAt (c : Dev nD) (t : Fin cfg0.N) (prev : Vec F S1x1x8192 .f32) : Vec F S1x1x8192 .f32 :=
  updCols (grid0.coords t) (k0_pay7 (iblk m c 0 t) (iblk m c 1 t)) prev

/-- What the row-minima buffer holds after the body at position `n`. -/
def acc1 (c : Dev nD) : (n : ℕ) → n < cfg0.N → Vec F S1x1x8192 .f32
  | 0, hn => rowsAt m c ⟨0, hn⟩ (k0_pay3 (F := F))
  | n + 1, hn => rowsAt m c ⟨n + 1, hn⟩ (if (n + 1) % 128 = 0 then (k0_pay3 (F := F)) else acc1 c n (Nat.lt_of_succ_lt hn))
/-- What the column-minima buffer holds after the body at position `n`. -/
def acc2 (c : Dev nD) : (n : ℕ) → n < cfg0.N → Vec F S1x1x8192 .f32
  | 0, hn => colsAt m c ⟨0, hn⟩ (k0_pay4 (F := F))
  | n + 1, hn => colsAt m c ⟨n + 1, hn⟩ (if (n + 1) % 128 = 0 then (k0_pay4 (F := F)) else acc2 c n (Nat.lt_of_succ_lt hn))

theorem acc1_reset (c : Dev nD) (t : Fin cfg0.N) (h : t.val % 128 = 0) :
    acc1 m c t.val t.isLt = rowsAt m c t (k0_pay3 (F := F)) := by
  obtain ⟨n, hn⟩ := t
  cases n with
  | zero => rfl
  | succ n => have h' : (n + 1) % 128 = 0 := h; rw [acc1, if_pos h']
theorem acc1_step (c : Dev nD) (t : Fin cfg0.N) (h : ¬t.val % 128 = 0) :
    acc1 m c t.val t.isLt = rowsAt m c t (acc1 m c (t.val - 1) (Nat.lt_of_le_of_lt (Nat.sub_le _ _) t.isLt)) := by
  obtain ⟨n, hn⟩ := t
  cases n with
  | zero => exact absurd (Nat.zero_mod _) h
  | succ n => have h' : ¬(n + 1) % 128 = 0 := h; rw [acc1, if_neg h']; rfl
theorem acc2_reset (c : Dev nD) (t : Fin cfg0.N) (h : t.val % 128 = 0) :
    acc2 m c t.val t.isLt = colsAt m c t (k0_pay4 (F := F)) := by
  obtain ⟨n, hn⟩ := t
  cases n with
  | zero => rfl
  | succ n => have h' : (n + 1) % 128 = 0 := h; rw [acc2, if_pos h']
theorem acc2_step (c : Dev nD) (t : Fin cfg0.N) (h : ¬t.val % 128 = 0) :
    acc2 m c t.val t.isLt = colsAt m c t (acc2 m c (t.val - 1) (Nat.lt_of_le_of_lt (Nat.sub_le _ _) t.isLt)) := by
  obtain ⟨n, hn⟩ := t
  cases n with
  | zero => exact absurd (Nat.zero_mod _) h
  | succ n => have h' : ¬(n + 1) % 128 = 0 := h; rw [acc2, if_neg h']; rfl

/-! ## The pipeline's proof data -/

/-- The arrays as the region finds them; after the body at point `t` each input's buffer at its block and the two
    outputs' at the running minima; the invariant the scoped rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => acc1 m c t.val t.isLt
    | ⟨3, _⟩ => acc2 m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = acc1 m c t.val t.isLt := by dsimp only [dats]
theorem after0_3 (c : Dev nD) (t : Fin cfg0.N) : (dats m 0 c).after 3 t = acc2 m c t.val t.isLt := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At a batch's first tile an output's buffer is fresh (the first point, or the point after a write-back): anything. -/
theorem before0_2_reset (c : Dev nD) (t : Fin cfg0.N) (h0 : t.val % 128 = 0) (d) : (dats m 0 c).before 2 t d = d :=
  Dat.before_out_reset _ 2 rfl t (by
    by_cases ht : t.val = 0
    · exact .inl ht
    · exact .inr ⟨ht, (flush0_2 _).mpr (by dsimp only; omega)⟩) d
theorem before0_3_reset (c : Dev nD) (t : Fin cfg0.N) (h0 : t.val % 128 = 0) (d) : (dats m 0 c).before 3 t d = d :=
  Dat.before_out_reset _ 3 rfl t (by
    by_cases ht : t.val = 0
    · exact .inl ht
    · exact .inr ⟨ht, (flush0_3 _).mpr (by dsimp only; omega)⟩) d
/-- At every other tile it holds what the body left at the point before: no write-back between. -/
theorem before0_2_acc (c : Dev nD) (t : Fin cfg0.N) (h0 : ¬t.val % 128 = 0) (d) :
    (dats m 0 c).before 2 t d = acc1 m c (t.val - 1) (Nat.lt_of_le_of_lt (Nat.sub_le _ _) t.isLt) := by
  rw [Dat.before_out_kept _ 2 rfl t (by omega) (Bool.eq_false_iff.mpr fun h => by have := (flush0_2 _).mp h; dsimp only at this; omega)
    (fun _ => rfl) (fun _ _ => rfl)]
  dsimp only [dats]
theorem before0_3_acc (c : Dev nD) (t : Fin cfg0.N) (h0 : ¬t.val % 128 = 0) (d) :
    (dats m 0 c).before 3 t d = acc2 m c (t.val - 1) (Nat.lt_of_le_of_lt (Nat.sub_le _ _) t.isLt) := by
  rw [Dat.before_out_kept _ 3 rfl t (by omega) (Bool.eq_false_iff.mpr fun h => by have := (flush0_3 _).mp h; dsimp only at this; omega)
    (fun _ => rfl) (fun _ _ => rfl)]
  dsimp only [dats]

/-! ## The body obligation -/

/-- Each window's current staging buffer at point `t`, as the pipeline passes it. -/
abbrev ms0 (t : Fin cfg0.N) : Memref sig .tc .vmem S1x1024x3 .f32 := win0_0.stage (cfg0.slots t 0)
abbrev ms1 (t : Fin cfg0.N) : Memref sig .tc .vmem S1x3x512 .f32 := win0_1.stage (cfg0.slots t 1)
abbrev ms2 (t : Fin cfg0.N) : Memref sig .tc .vmem S1x1x8192 .f32 := win0_2.stage (cfg0.slots t 2)
abbrev ms3 (t : Fin cfg0.N) : Memref sig .tc .vmem S1x1x8192 .f32 := win0_3.stage (cfg0.slots t 3)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 800000 in
/-- The body at any point: by cases on whether the tile is a batch's first. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  by_cases h0 : t.val % 128 = 0
  · rw [acc1_reset m c t h0, acc2_reset m c t h0]
    simp only [before0_2_reset m c t h0, before0_3_reset m c t h0]
    unfold rowsAt colsAt
    iintro ⟨HΦ, Ho, ⟨%d0, H0⟩, ⟨%d1, H1⟩, ⟨%d2, H2⟩, ⟨%d3, H3⟩⟩
    iapply (runReset c (grid0.coords t) _ _ _ _ _ _ _ _ ((resets_iff t).mpr h0) (iblk m c 0 t) (iblk m c 1 t) d2 d3 Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [acc1_step m c t h0, acc2_step m c t h0]
    simp only [before0_2_acc m c t h0, before0_3_acc m c t h0]
    unfold rowsAt colsAt
    iintro ⟨HΦ, Ho, ⟨%d0, H0⟩, ⟨%d1, H1⟩, ⟨%d2, H2⟩, ⟨%d3, H3⟩⟩
    iapply (runAcc c (grid0.coords t) _ _ _ _ _ _ _ _ (fun h => h0 ((resets_iff t).mp h)) (iblk m c 0 t) (iblk m c 1 t) _ _ Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every array of the pipeline ends at what the library computes from the
    proof data, every other unscoped buffer at what the host lines after the region compute from those. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.BodyRunK.lean ====
/-
  The kernel body run on whole staging buffers, in its two control cases: what each running-minimum buffer holds
  afterwards, as one explicit function of the two input blocks and of what the buffer held before.
-/
import proofs.«160425_j23373212024987_2_alg».proof.Proof.Gen.Kernel.Frame
import proofs.«160425_j23373212024987_2_alg».proof.Proof.Gen.Kernel.Skeleton
import Idealize.ShloMosaic.Lib.WritesUnit
import Idealize.ShloMosaic.Lib.Pipeline.Value

set_option maxRecDepth 16384

noncomputable section

namespace Cert.Kernel.Body

open Cert.Kernel Cert.Kernel.Gen Cert.Kernel.Facts₀
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One tile's update of a running minimum

The running row minima live in a buffer of 8192 entries; a tile touches the 1024 of its row tile, replacing each by the
minimum of what was there and the tile's row minimum, and leaves the others. Likewise the column minima, 512 at a time. -/

theorem zeros3 : (![0, 0, 0] : Fin 3 → ℕ) = fun _ => 0 := by funext a; fin_cases a <;> rfl

/-- The row minima after a tile: `v38` the tile's 1024 row minima, `prev` what the buffer held. -/
def updRows (i : grid0.Coords) (v38 : FVec F S1024 .f32) (prev : Vec F S1x1x8192 .f32) : Vec F S1x1x8192 .f32 := fun y =>
  if h : ∀ a, k0_off1 i a ≤ (y a).val ∧ (y a).val < k0_off1 i a + S1x1x1024.size a then
    k0_pay1 v38 (View.ld prev (Rect.unit (s := S1x1x8192) (k0_off1 i) S1x1x1024.size (Facts₀.k0_off1_inb i)))
      (Rect.unitLocal (s := S1x1x8192) (off := k0_off1 i) (size := S1x1x1024.size) y h)
  else prev y

/-- The column minima after a tile: `v39` the tile's 512 column minima. -/
def updCols (i : grid0.Coords) (v39 : FVec F S512 .f32) (prev : Vec F S1x1x8192 .f32) : Vec F S1x1x8192 .f32 := fun y =>
  if h : ∀ a, k0_off2 i a ≤ (y a).val ∧ (y a).val < k0_off2 i a + S1x1x512.size a then
    k0_pay2 v39 (View.ld prev (Rect.unit (s := S1x1x8192) (k0_off2 i) S1x1x512.size (Facts₀.k0_off2_inb i)))
      (Rect.unitLocal (s := S1x1x8192) (off := k0_off2 i) (size := S1x1x512.size) y h)
  else prev y

section Geometry

variable (M : Memref sig .tc .vmem S1x1x8192 .f32) (hM : M.IsWhole)

/-- A store of the whole block, read back, is its payload. -/
theorem read_fill (f : M.view.ty.Contents (Elt F)) (P : Vec F S1x1x8192 .f32) :
    M.view.read (Elt F) (M.view.writes (Elt F) f
      [⟨Rect.unit (s := S1x1x8192) ![0, 0, 0] S1x1x8192.size Facts₀.inb_S1x1x8192_S1x1x8192_0_0_0, P⟩]) = P := by
  funext y
  exact View.read_writes_cons_unit_of_mem M.view f Facts₀.inb_S1x1x8192_S1x1x8192_0_0_0 P [] y y rfl (fun a => by
    have h0 : (![0, 0, 0] : Fin 3 → ℕ) a = 0 := congrFun zeros3 a
    rw [h0, Nat.zero_add])

/-- One tile's store of row minima over known contents. -/
theorem read_store_rows (i : grid0.Coords) (v38 : FVec F S1024 .f32) (prev : Vec F S1x1x8192 .f32) :
    M.view.read (Elt F) (M.view.writes (Elt F) (hM.unread prev)
      [⟨Rect.unit (s := S1x1x8192) (k0_off1 i) S1x1x1024.size (Facts₀.k0_off1_inb i),
        k0_pay1 v38 (View.readAt (Elt F) M.view
          (Rect.unit (s := S1x1x8192) (k0_off1 i) S1x1x1024.size (Facts₀.k0_off1_inb i)).toLoadRect (hM.unread prev))⟩])
      = updRows i v38 prev := by
  funext y
  rw [View.read_writes_cons_unit M.view (hM.unread prev) (Facts₀.k0_off1_inb i) _ [] y rfl]
  unfold updRows
  simp only [View.writes_nil, View.readAt_eq_ld, hM.read_unread]

/-- The same after the whole block was filled with `P`. -/
theorem read_fill_store_rows (f : M.view.ty.Contents (Elt F)) (i : grid0.Coords) (v38 : FVec F S1024 .f32) (P : Vec F S1x1x8192 .f32) :
    M.view.read (Elt F) (M.view.writes (Elt F) f
      [⟨Rect.unit (s := S1x1x8192) (k0_off1 i) S1x1x1024.size (Facts₀.k0_off1_inb i),
        k0_pay1 v38 (View.readAt (Elt F) M.view
          (Rect.unit (s := S1x1x8192) (k0_off1 i) S1x1x1024.size (Facts₀.k0_off1_inb i)).toLoadRect
          (M.view.writes (Elt F) f [⟨Rect.unit (s := S1x1x8192) ![0, 0, 0] S1x1x8192.size Facts₀.inb_S1x1x8192_S1x1x8192_0_0_0, P⟩]))⟩,
       ⟨Rect.unit (s := S1x1x8192) ![0, 0, 0] S1x1x8192.size Facts₀.inb_S1x1x8192_S1x1x8192_0_0_0, P⟩])
      = updRows i v38 P := by
  funext y
  rw [View.read_writes_cons_unit M.view f (Facts₀.k0_off1_inb i) _ _ y rfl]
  unfold updRows
  simp only [View.readAt_eq_ld, read_fill M]

/-- One tile's store of column minima over known contents. -/
theorem read_store_cols (i : grid0.Coords) (v39 : FVec F S512 .f32) (prev : Vec F S1x1x8192 .f32) :
    M.view.read (Elt F) (M.view.writes (Elt F) (hM.unread prev)
      [⟨Rect.unit (s := S1x1x8192) (k0_off2 i) S1x1x512.size (Facts₀.k0_off2_inb i),
        k0_pay2 v39 (View.readAt (Elt F) M.view
          (Rect.unit (s := S1x1x8192) (k0_off2 i) S1x1x512.size (Facts₀.k0_off2_inb i)).toLoadRect (hM.unread prev))⟩])
      = updCols i v39 prev := by
  funext y
  rw [View.read_writes_cons_unit M.view (hM.unread prev) (Facts₀.k0_off2_inb i) _ [] y rfl]
  unfold updCols
  simp only [View.writes_nil, View.readAt_eq_ld, hM.read_unread]

/-- The same after the whole block was filled with `P`. -/
theorem read_fill_store_cols (f : M.view.ty.Contents (Elt F)) (i : grid0.Coords) (v39 : FVec F S512 .f32) (P : Vec F S1x1x8192 .f32) :
    M.view.read (Elt F) (M.view.writes (Elt F) f
      [⟨Rect.unit (s := S1x1x8192) (k0_off2 i) S1x1x512.size (Facts₀.k0_off2_inb i),
        k0_pay2 v39 (View.readAt (Elt F) M.view
          (Rect.unit (s := S1x1x8192) (k0_off2 i) S1x1x512.size (Facts₀.k0_off2_inb i)).toLoadRect
          (M.view.writes (Elt F) f [⟨Rect.unit (s := S1x1x8192) ![0, 0, 0] S1x1x8192.size Facts₀.inb_S1x1x8192_S1x1x8192_0_0_0, P⟩]))⟩,
       ⟨Rect.unit (s := S1x1x8192) ![0, 0, 0] S1x1x8192.size Facts₀.inb_S1x1x8192_S1x1x8192_0_0_0, P⟩])
      = updCols i v39 P := by
  funext y
  rw [View.read_writes_cons_unit M.view f (Facts₀.k0_off2_inb i) _ _ y rfl]
  unfold updCols
  simp only [View.readAt_eq_ld, read_fill M]

end Geometry

/-- The tile's minima are computed from the two input blocks as loaded whole. -/
theorem loaded_blocks (arg3 : Memref sig .tc .vmem S1x1024x3 .f32) (harg3 : arg3.IsWhole)
    (arg4 : Memref sig .tc .vmem S1x3x512 .f32) (harg4 : arg4.IsWhole) (x0 : Vec F S1x1024x3 .f32) (x1 : Vec F S1x3x512 .f32) :
    View.readAt (Elt F) arg3.view (Rect.unit (s := S1x1024x3) ![0, 0, 0] S1x1024x3.size Facts₀.inb_S1x1024x3_S1x1024x3_0_0_0).toLoadRect (harg3.unread x0) = x0
    ∧ View.readAt (Elt F) arg4.view (Rect.unit (s := S1x3x512) ![0, 0, 0] S1x3x512.size Facts₀.inb_S1x3x512_S1x3x512_0_0_0).toLoadRect (harg4.unread x1) = x1 := by
  constructor
  · rw [View.readAt_eq_ld, harg3.read_unread, View.ld_unit_zero zeros3]
  · rw [View.readAt_eq_ld, harg4.read_unread, View.ld_unit_zero zeros3]

/-! ## The body's branch: the first tile of a batch resets both running minima -/

/-- The body's one condition, from the grid coordinates: row tile `0` and column tile `0`. -/
abbrev resets (i : grid0.Coords) : Prop :=
  (Scalar.cmpi .ne (Scalar.extui (Scalar.andi (Scalar.cmpi .eq (BitVec.ofNat 32 (i 1).val) 0#32)
    (Scalar.cmpi .eq (BitVec.ofNat 32 (i 2).val) 0#32))) 0#32) = 1#1

/-- It holds exactly at the first of each batch's 128 tiles. -/
theorem resets_iff : ∀ t : Fin cfg0.N, resets (grid0.coords t) ↔ t.val % 128 = 0 :=
  (by decide +kernel : ∀ t : Fin grid0.N, resets (grid0.coords t) ↔ t.val % 128 = 0)

/-! ## The body on whole staging buffers -/

set_option maxHeartbeats 1000000 in
/-- AT A RESETTING TILE: from the two input blocks and ANY contents of the two running-minimum buffers, the body ends with
    the inputs as they were and each running minimum at the tile's update of the all-`+∞` fill. -/
theorem runReset (c : Dev nD) (i : grid0.Coords) (arg3 : Memref sig .tc .vmem S1x1024x3 .f32) (harg3 : arg3.IsWhole)
    (arg4 : Memref sig .tc .vmem S1x3x512 .f32) (harg4 : arg4.IsWhole) (arg5 : Memref sig .tc .vmem S1x1x8192 .f32) (harg5 : arg5.IsWhole)
    (arg6 : Memref sig .tc .vmem S1x1x8192 .f32) (harg6 : arg6.IsWhole) (hc : resets i)
    (x0 : Vec F S1x1024x3 .f32) (x1 : Vec F S1x3x512 .f32) (d2 d3 : Vec F S1x1x8192 .f32)
    (E : Set ℕ) (K : PUnit → sProp 𝕄) :
    iprop(owns (c : Thread nD τ) arg3 fullShare x0 ∗ owns (c : Thread nD τ) arg4 fullShare x1
        ∗ owns (c : Thread nD τ) arg5 fullShare d2 ∗ owns (c : Thread nD τ) arg6 fullShare d3
        ∗ (iprop(owns (c : Thread nD τ) arg3 fullShare x0 ∗ owns (c : Thread nD τ) arg4 fullShare x1
            ∗ owns (c : Thread nD τ) arg5 fullShare (updRows i (k0_pay6 x0 x1) (k0_pay3 (F := F)))
            ∗ owns (c : Thread nD τ) arg6 fullShare (updCols i (k0_pay7 x0 x1) (k0_pay4 (F := F)))) -∗ K ⟨⟩))
      ⊢ wp frame (wpE (defs₀ (F := F)) Variants.none c none) E (cc0_kernel i arg3 harg3 arg4 harg4 arg5 harg5 arg6 harg6) K := by
  simp only [cc0_kernel_eq_skeleton]; unfold cc0_kernel_skel
  simp only [k0_part1_eq_skeleton]
  unfold owns
  iintro ⟨⟨%f0, %hf0, H0⟩, ⟨%f1, %hf1, H1⟩, ⟨%f2, %hf2, H2⟩, ⟨%f3, %hf3, H3⟩, Hk⟩
  obtain rfl := harg3.eq_unread hf0; obtain rfl := harg4.eq_unread hf1
  obtain rfl := harg5.eq_unread hf2; obtain rfl := harg6.eq_unread hf3
  sl_exec (disch := first | exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; swap; · iexact H2
    ipureintro
    refine (read_fill_store_rows arg5 _ i _ (k0_pay3 (F := F))).trans ?_
    refine congrArg (fun v => updRows i v (k0_pay3 (F := F))) ?_
    exact (congrArg₂ k0_pay6 (loaded_blocks arg3 harg3 arg4 harg4 x0 x1).1 (loaded_blocks arg3 harg3 arg4 harg4 x0 x1).2)
  iexists _; isplitr; swap; · iexact H3
  ipureintro
  refine (read_fill_store_cols arg6 _ i _ (k0_pay4 (F := F))).trans ?_
  refine congrArg (fun v => updCols i v (k0_pay4 (F := F))) ?_
  exact (congrArg₂ k0_pay7 (loaded_blocks arg3 harg3 arg4 harg4 x0 x1).1 (loaded_blocks arg3 harg3 arg4 harg4 x0 x1).2)

set_option maxHeartbeats 1000000 in
/-- AT ANY OTHER TILE: the running-minimum buffers holding `xo2`, `xo3` end at the tile's update of those. -/
theorem runAcc (c : Dev nD) (i : grid0.Coords) (arg3 : Memref sig .tc .vmem S1x1024x3 .f32) (harg3 : arg3.IsWhole)
    (arg4 : Memref sig .tc .vmem S1x3x512 .f32) (harg4 : arg4.IsWhole) (arg5 : Memref sig .tc .vmem S1x1x8192 .f32) (harg5 : arg5.IsWhole)
    (arg6 : Memref sig .tc .vmem S1x1x8192 .f32) (harg6 : arg6.IsWhole) (hc : ¬resets i)
    (x0 : Vec F S1x1024x3 .f32) (x1 : Vec F S1x3x512 .f32) (xo2 xo3 : Vec F S1x1x8192 .f32)
    (E : Set ℕ) (K : PUnit → sProp 𝕄) :
    iprop(owns (c : Thread nD τ) arg3 fullShare x0 ∗ owns (c : Thread nD τ) arg4 fullShare x1
        ∗ owns (c : Thread nD τ) arg5 fullShare xo2 ∗ owns (c : Thread nD τ) arg6 fullShare xo3
        ∗ (iprop(owns (c : Thread nD τ) arg3 fullShare x0 ∗ owns (c : Thread nD τ) arg4 fullShare x1
            ∗ owns (c : Thread nD τ) arg5 fullShare (updRows i (k0_pay6 x0 x1) xo2)
            ∗ owns (c : Thread nD τ) arg6 fullShare (updCols i (k0_pay7 x0 x1) xo3)) -∗ K ⟨⟩))
      ⊢ wp frame (wpE (defs₀ (F := F)) Variants.none c none) E (cc0_kernel i arg3 harg3 arg4 harg4 arg5 harg5 arg6 harg6) K := by
  simp only [cc0_kernel_eq_skeleton]; unfold cc0_kernel_skel
  simp only [k0_part1_eq_skeleton]
  unfold owns
  iintro ⟨⟨%f0, %hf0, H0⟩, ⟨%f1, %hf1, H1⟩, ⟨%f2, %hf2, H2⟩, ⟨%f3, %hf3, H3⟩, Hk⟩
  obtain rfl := harg3.eq_unread hf0; obtain rfl := harg4.eq_unread hf1
  obtain rfl := harg5.eq_unread hf2; obtain rfl := harg6.eq_unread hf3
  sl_exec (disch := first | exact hc)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; swap; · iexact H2
    ipureintro
    refine (read_store_rows arg5 harg5 i _ xo2).trans ?_
    refine congrArg (fun v => updRows i v xo2) ?_
    exact (congrArg₂ k0_pay6 (loaded_blocks arg3 harg3 arg4 harg4 x0 x1).1 (loaded_blocks arg3 harg3 arg4 harg4 x0 x1).2)
  iexists _; isplitr; swap; · iexact H3
  ipureintro
  refine (read_store_cols arg6 harg6 i _ xo3).trans ?_
  refine congrArg (fun v => updCols i v xo3) ?_
  exact (congrArg₂ k0_pay7 (loaded_blocks arg3 harg3 arg4 harg4 x0 x1).1 (loaded_blocks arg3 harg3 arg4 harg4 x0 x1).2)

end Cert.Kernel.Body

end
-- ==== Proof.BodyK.lean ====
/-
  The frame of the program: the pipeline's proof data with both running-minimum buffers named point by point, the body
  obligation in the body's two control cases, the launch continued by the host lines, and the frame claim.
-/
import proofs.«160425_j23373212024987_2_alg».proof.Proof.BodyRunK

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The running minima, point by point

The 512 points are four batches of 128 tiles. At a batch's first tile both buffers are filled with `+∞` and updated;
at every other tile they are updated from what the tile before left. -/

/-- The update of the row minima by the tile at point `t`, from its two input blocks. -/
def rowsAt (c : Dev nD) (t : Fin cfg0.N) (prev : Vec F S1x1x8192 .f32) : Vec F S1x1x8192 .f32 :=
  updRows (grid0.coords t) (k0_pay6 (iblk m c 0 t) (iblk m c 1 t)) prev
/-- The update of the column minima by the tile at point `t`. -/
def colsAt (c : Dev nD) (t : Fin cfg0.N) (prev : Vec F S1x1x8192 .f32) : Vec F S1x1x8192 .f32 :=
  updCols (grid0.coords t) (k0_pay7 (iblk m c 0 t) (iblk m c 1 t)) prev

/-- What the row-minima buffer holds after the body at position `n`. -/
def acc1 (c : Dev nD) : (n : ℕ) → n < cfg0.N → Vec F S1x1x8192 .f32
  | 0, hn => rowsAt m c ⟨0, hn⟩ (k0_pay3 (F := F))
  | n + 1, hn => rowsAt m c ⟨n + 1, hn⟩ (if (n + 1) % 128 = 0 then (k0_pay3 (F := F)) else acc1 c n (Nat.lt_of_succ_lt hn))
/-- What the column-minima buffer holds after the body at position `n`. -/
def acc2 (c : Dev nD) : (n : ℕ) → n < cfg0.N → Vec F S1x1x8192 .f32
  | 0, hn => colsAt m c ⟨0, hn⟩ (k0_pay4 (F := F))
  | n + 1, hn => colsAt m c ⟨n + 1, hn⟩ (if (n + 1) % 128 = 0 then (k0_pay4 (F := F)) else acc2 c n (Nat.lt_of_succ_lt hn))

theorem acc1_reset (c : Dev nD) (t : Fin cfg0.N) (h : t.val % 128 = 0) :
    acc1 m c t.val t.isLt = rowsAt m c t (k0_pay3 (F := F)) := by
  obtain ⟨n, hn⟩ := t
  cases n with
  | zero => rfl
  | succ n => have h' : (n + 1) % 128 = 0 := h; rw [acc1, if_pos h']
theorem acc1_step (c : Dev nD) (t : Fin cfg0.N) (h : ¬t.val % 128 = 0) :
    acc1 m c t.val t.isLt = rowsAt m c t (acc1 m c (t.val - 1) (Nat.lt_of_le_of_lt (Nat.sub_le _ _) t.isLt)) := by
  obtain ⟨n, hn⟩ := t
  cases n with
  | zero => exact absurd (Nat.zero_mod _) h
  | succ n => have h' : ¬(n + 1) % 128 = 0 := h; rw [acc1, if_neg h']; rfl
theorem acc2_reset (c : Dev nD) (t : Fin cfg0.N) (h : t.val % 128 = 0) :
    acc2 m c t.val t.isLt = colsAt m c t (k0_pay4 (F := F)) := by
  obtain ⟨n, hn⟩ := t
  cases n with
  | zero => rfl
  | succ n => have h' : (n + 1) % 128 = 0 := h; rw [acc2, if_pos h']
theorem acc2_step (c : Dev nD) (t : Fin cfg0.N) (h : ¬t.val % 128 = 0) :
    acc2 m c t.val t.isLt = colsAt m c t (acc2 m c (t.val - 1) (Nat.lt_of_le_of_lt (Nat.sub_le _ _) t.isLt)) := by
  obtain ⟨n, hn⟩ := t
  cases n with
  | zero => exact absurd (Nat.zero_mod _) h
  | succ n => have h' : ¬(n + 1) % 128 = 0 := h; rw [acc2, if_neg h']; rfl

/-! ## The pipeline's proof data -/

/-- The arrays as the region finds them; after the body at point `t` each input's buffer at its block and the two
    outputs' at the running minima; the invariant the scoped rest; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => acc1 m c t.val t.isLt
    | ⟨3, _⟩ => acc2 m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = acc1 m c t.val t.isLt := by dsimp only [dats]
theorem after0_3 (c : Dev nD) (t : Fin cfg0.N) : (dats m 0 c).after 3 t = acc2 m c t.val t.isLt := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At a batch's first tile an output's buffer is fresh (the first point, or the point after a write-back): anything. -/
theorem before0_2_reset (c : Dev nD) (t : Fin cfg0.N) (h0 : t.val % 128 = 0) (d) : (dats m 0 c).before 2 t d = d :=
  Dat.before_out_reset _ 2 rfl t (by
    by_cases ht : t.val = 0
    · exact .inl ht
    · exact .inr ⟨ht, (flush0_2 _).mpr (by dsimp only; omega)⟩) d
theorem before0_3_reset (c : Dev nD) (t : Fin cfg0.N) (h0 : t.val % 128 = 0) (d) : (dats m 0 c).before 3 t d = d :=
  Dat.before_out_reset _ 3 rfl t (by
    by_cases ht : t.val = 0
    · exact .inl ht
    · exact .inr ⟨ht, (flush0_3 _).mpr (by dsimp only; omega)⟩) d
/-- At every other tile it holds what the body left at the point before: no write-back between. -/
theorem before0_2_acc (c : Dev nD) (t : Fin cfg0.N) (h0 : ¬t.val % 128 = 0) (d) :
    (dats m 0 c).before 2 t d = acc1 m c (t.val - 1) (Nat.lt_of_le_of_lt (Nat.sub_le _ _) t.isLt) := by
  rw [Dat.before_out_kept _ 2 rfl t (by omega) (Bool.eq_false_iff.mpr fun h => by have := (flush0_2 _).mp h; dsimp only at this; omega)
    (fun _ => rfl) (fun _ _ => rfl)]
  dsimp only [dats]
theorem before0_3_acc (c : Dev nD) (t : Fin cfg0.N) (h0 : ¬t.val % 128 = 0) (d) :
    (dats m 0 c).before 3 t d = acc2 m c (t.val - 1) (Nat.lt_of_le_of_lt (Nat.sub_le _ _) t.isLt) := by
  rw [Dat.before_out_kept _ 3 rfl t (by omega) (Bool.eq_false_iff.mpr fun h => by have := (flush0_3 _).mp h; dsimp only at this; omega)
    (fun _ => rfl) (fun _ _ => rfl)]
  dsimp only [dats]

/-! ## The body obligation -/

/-- Each window's current staging buffer at point `t`, as the pipeline passes it. -/
abbrev ms0 (t : Fin cfg0.N) : Memref sig .tc .vmem S1x1024x3 .f32 := win0_0.stage (cfg0.slots t 0)
abbrev ms1 (t : Fin cfg0.N) : Memref sig .tc .vmem S1x3x512 .f32 := win0_1.stage (cfg0.slots t 1)
abbrev ms2 (t : Fin cfg0.N) : Memref sig .tc .vmem S1x1x8192 .f32 := win0_2.stage (cfg0.slots t 2)
abbrev ms3 (t : Fin cfg0.N) : Memref sig .tc .vmem S1x1x8192 .f32 := win0_3.stage (cfg0.slots t 3)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 800000 in
/-- The body at any point: by cases on whether the tile is a batch's first. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  by_cases h0 : t.val % 128 = 0
  · rw [acc1_reset m c t h0, acc2_reset m c t h0]
    simp only [before0_2_reset m c t h0, before0_3_reset m c t h0]
    unfold rowsAt colsAt
    iintro ⟨HΦ, Ho, ⟨%d0, H0⟩, ⟨%d1, H1⟩, ⟨%d2, H2⟩, ⟨%d3, H3⟩⟩
    iapply (runReset c (grid0.coords t) _ _ _ _ _ _ _ _ ((resets_iff t).mpr h0) (iblk m c 0 t) (iblk m c 1 t) d2 d3 Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [acc1_step m c t h0, acc2_step m c t h0]
    simp only [before0_2_acc m c t h0, before0_3_acc m c t h0]
    unfold rowsAt colsAt
    iintro ⟨HΦ, Ho, ⟨%d0, H0⟩, ⟨%d1, H1⟩, ⟨%d2, H2⟩, ⟨%d3, H3⟩⟩
    iapply (runAcc c (grid0.coords t) _ _ _ _ _ _ _ _ (fun h => h0 ((resets_iff t).mp h)) (iblk m c 0 t) (iblk m c 1 t) _ _ Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every array of the pipeline ends at what the library computes from the
    proof data, every other unscoped buffer at what the host lines after the region compute from those. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim, at any instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.Spec.lean ====
/-
  The mathematics both programs compute, stated once over plain coordinates.

  Two clouds of 8192 points in three coordinates, in four batches. For a point `n` of the first cloud and a point `m` of
  the second, the squared distance is `|x_n|² + |y_m|² - 2 x_n·y_m`. One program forms it from the second cloud
  pre-scaled by `-2` (`s = -2 y`, so `|s|²/4 = |y|²` and `x·s = -2 x·y`), the other directly. The nearest-point
  distance of `n` is the minimum over `m` clamped at `0`; clamping commutes with the minimum.

  The first program forms that minimum tile by tile: the pairs `(n, m)` are cut into tiles of 1024 × 512, visited in
  row-major order of (row tile, column tile), and after `k + 1` tiles the running minimum of row `n` is the minimum over
  the columns of the tiles seen so far (`seen1`), and likewise for each column (`seen2`).
-/
import Idealize.ShloMosaic.PureOps.Ideal

noncomputable section

namespace Cert.Spec

open scoped BigOperators

/-- Batch, point, coordinate. -/
abbrev Cloud := Fin 4 → Fin 8192 → Fin 3 → EReal

def negTwo : EReal := ((-2 : ℝ) : EReal)
def quarter : EReal := ((1 / 4 : ℝ) : EReal)
def two : EReal := ((2 : ℝ) : EReal)

/-- Every coordinate is a real number. -/
def Finite (x : Cloud) : Prop := ∀ b n d, ∃ r : ℝ, x b n d = (r : EReal)

/-- The squared distance from the first cloud and the pre-scaled second cloud `s`:
    `(|x|² + |s|²·¼) + ((x₀s₀ + x₁s₁) + x₂s₂)`. -/
def cellK (x s : Cloud) (b : Fin 4) (n m : Fin 8192) : EReal :=
  ((∑ d, x b n d * x b n d) + (∑ d, s b m d * s b m d) * quarter)
    + ((x b n 0 * s b m 0 + x b n 1 * s b m 1) + x b n 2 * s b m 2)

/-- The second cloud scaled by `-2`. -/
def scaled (y : Cloud) : Cloud := fun b m d => negTwo * y b m d

/-- The squared distance, first arrangement. -/
def dK (x y : Cloud) (b : Fin 4) (n m : Fin 8192) : EReal := cellK x (scaled y) b n m

/-- The squared distance, second arrangement: `(|x|² + |y|²) - 2 (x·y)`. -/
def dR (x y : Cloud) (b : Fin 4) (n m : Fin 8192) : EReal :=
  ((∑ d, x b n d * x b n d) + (∑ d, y b m d * y b m d)) - two * (∑ d, x b n d * y b m d)

/-- Nearest-point distances, first arrangement: the minimum first, then the clamp. -/
def near1K (x y : Cloud) (b : Fin 4) (n : Fin 8192) : EReal := max (Finset.univ.inf fun m => dK x y b n m) 0
def near2K (x y : Cloud) (b : Fin 4) (m : Fin 8192) : EReal := max (Finset.univ.inf fun n => dK x y b n m) 0

/-- Nearest-point distances, second arrangement: the clamp first, then the minimum. -/
def near1R (x y : Cloud) (b : Fin 4) (n : Fin 8192) : EReal := Finset.univ.inf fun m => max (dR x y b n m) 0
def near2R (x y : Cloud) (b : Fin 4) (m : Fin 8192) : EReal := Finset.univ.inf fun n => max (dR x y b n m) 0

/-- On real coordinates the two arrangements of the squared distance agree. -/
theorem dK_eq_dR {x y : Cloud} (hx : Finite x) (hy : Finite y) (b : Fin 4) (n m : Fin 8192) :
    dK x y b n m = dR x y b n m := by
  obtain ⟨a0, ha0⟩ := hx b n 0
  obtain ⟨a1, ha1⟩ := hx b n 1
  obtain ⟨a2, ha2⟩ := hx b n 2
  obtain ⟨c0, hc0⟩ := hy b m 0
  obtain ⟨c1, hc1⟩ := hy b m 1
  obtain ⟨c2, hc2⟩ := hy b m 2
  simp only [dK, dR, cellK, scaled, Fin.sum_univ_three, ha0, ha1, ha2, hc0, hc1, hc2, negTwo, quarter, two]
  simp only [← EReal.coe_mul, ← EReal.coe_add, ← EReal.coe_sub]
  congr 1
  ring

theorem near1K_eq {x y : Cloud} (hx : Finite x) (hy : Finite y) : near1K x y = near1R x y := by
  funext b n
  simp only [near1K, near1R]
  rw [Finset.inf_congr rfl (fun m _ => dK_eq_dR hx hy b n m)]
  exact Finset.apply_inf_eq_inf_comp_of_linearOrder (fun t : EReal => max t 0)
    (fun _ _ h => max_le_max h le_rfl) (top_sup_eq _)

theorem near2K_eq {x y : Cloud} (hx : Finite x) (hy : Finite y) : near2K x y = near2R x y := by
  funext b m
  simp only [near2K, near2R]
  rw [Finset.inf_congr rfl (fun n _ => dK_eq_dR hx hy b n m)]
  exact Finset.apply_inf_eq_inf_comp_of_linearOrder (fun t : EReal => max t 0)
    (fun _ _ h => max_le_max h le_rfl) (top_sup_eq _)

/-! ## Tile by tile -/

/-- The columns of column tile `j` (512 wide). -/
def colTile (j : ℕ) : Finset (Fin 8192) := Finset.univ.filter fun m => m.val / 512 = j
/-- The rows of row tile `i` (1024 high). -/
def rowTile (i : ℕ) : Finset (Fin 8192) := Finset.univ.filter fun n => n.val / 1024 = i

/-- The columns whose tile, in row `n`'s row of tiles, is among the first `k + 1` tiles visited. -/
def seen1 (k : ℕ) (n : Fin 8192) : Finset (Fin 8192) :=
  Finset.univ.filter fun m => (n.val / 1024) * 16 + m.val / 512 ≤ k
/-- The rows whose tile, in column `m`'s column of tiles, is among the first `k + 1` tiles visited. -/
def seen2 (k : ℕ) (m : Fin 8192) : Finset (Fin 8192) :=
  Finset.univ.filter fun n => (n.val / 1024) * 16 + m.val / 512 ≤ k

theorem inf_seen1_zero (f : Fin 8192 → EReal) (n : Fin 8192) :
    (seen1 0 n).inf f = if n.val / 1024 = 0 then min ⊤ ((colTile 0).inf f) else ⊤ := by
  split_ifs with h
  · rw [min_top_left]
    congr 1
    ext m
    simp only [seen1, colTile, Finset.mem_filter, Finset.mem_univ, true_and]
    omega
  · have hempty : seen1 0 n = ∅ := by
      ext m
      simp only [seen1, Finset.mem_filter, Finset.mem_univ, true_and, Finset.notMem_empty, iff_false]
      omega
    rw [hempty, Finset.inf_empty]

theorem inf_seen1_succ (f : Fin 8192 → EReal) (k : ℕ) (hk : k + 1 < 128) (n : Fin 8192) :
    (seen1 (k + 1) n).inf f
      = if n.val / 1024 = (k + 1) / 16 then min ((seen1 k n).inf f) ((colTile ((k + 1) % 16)).inf f)
        else (seen1 k n).inf f := by
  have hm : ∀ m : Fin 8192, m.val / 512 < 16 := fun m => by have := m.isLt; omega
  split_ifs with h
  · have hunion : seen1 (k + 1) n = seen1 k n ∪ colTile ((k + 1) % 16) := by
      ext m
      have := hm m
      simp only [seen1, colTile, Finset.mem_union, Finset.mem_filter, Finset.mem_univ, true_and]
      omega
    rw [hunion, Finset.inf_union]
  · congr 1
    ext m
    have := hm m
    simp only [seen1, Finset.mem_filter, Finset.mem_univ, true_and]
    omega

theorem seen1_last (n : Fin 8192) : seen1 127 n = Finset.univ := by
  ext m
  have := n.isLt
  have := m.isLt
  simp only [seen1, Finset.mem_filter, Finset.mem_univ, true_and, iff_true]
  omega

theorem inf_seen2_zero (f : Fin 8192 → EReal) (m : Fin 8192) :
    (seen2 0 m).inf f = if m.val / 512 = 0 then min ⊤ ((rowTile 0).inf f) else ⊤ := by
  split_ifs with h
  · rw [min_top_left]
    congr 1
    ext n
    simp only [seen2, rowTile, Finset.mem_filter, Finset.mem_univ, true_and]
    omega
  · have hempty : seen2 0 m = ∅ := by
      ext n
      simp only [seen2, Finset.mem_filter, Finset.mem_univ, true_and, Finset.notMem_empty, iff_false]
      omega
    rw [hempty, Finset.inf_empty]

theorem inf_seen2_succ (f : Fin 8192 → EReal) (k : ℕ) (hk : k + 1 < 128) (m : Fin 8192) :
    (seen2 (k + 1) m).inf f
      = if m.val / 512 = (k + 1) % 16 then min ((seen2 k m).inf f) ((rowTile ((k + 1) / 16)).inf f)
        else (seen2 k m).inf f := by
  have hm : m.val / 512 < 16 := by have := m.isLt; omega
  split_ifs with h
  · have hunion : seen2 (k + 1) m = seen2 k m ∪ rowTile ((k + 1) / 16) := by
      ext n
      simp only [seen2, rowTile, Finset.mem_union, Finset.mem_filter, Finset.mem_univ, true_and]
      omega
    rw [hunion, Finset.inf_union]
  · congr 1
    ext n
    simp only [seen2, Finset.mem_filter, Finset.mem_univ, true_and]
    omega

theorem seen2_last (m : Fin 8192) : seen2 127 m = Finset.univ := by
  ext n
  have := n.isLt
  have := m.isLt
  simp only [seen2, Finset.mem_filter, Finset.mem_univ, true_and, iff_true]
  omega

end Cert.Spec

end
-- ==== Proof.Consts.lean ====
/-
  The float constants this certificate's programs spell, each as the extended real its bit pattern denotes at the
  ideal instance: `0`, `2`, `-2`, `1/4` and `+∞`. They are evaluated here once; every other module reads them
  from this one.
-/
import Idealize.ShloMosaic.PureOps.Ideal
import proofs.«160425_j23373212024987_2_alg».proof.Proof.Spec

noncomputable section

namespace Cert.Consts

open Idealize.ShloMosaic

/-- `+0.0` denotes `0`. -/
theorem ofBits_zero : Ideal.ofBits .f32 0x00000000#32 = 0 := by
  simp [Ideal.ofBits, Ideal.ieee]

/-- `2.0` (sign `+`, exponent `128`, significand `1`) denotes the real `2`. -/
theorem ofBits_two : Ideal.ofBits .f32 0x40000000#32 = Cert.Spec.two := by
  unfold Cert.Spec.two
  simp [Ideal.ofBits, Ideal.ieee, -EReal.coe_mul]; norm_num

/-- `-2.0` (sign `-`, exponent `128`, significand `1`) denotes the real `-2`. -/
theorem ofBits_negTwo : Ideal.ofBits .f32 0xC0000000#32 = Cert.Spec.negTwo := by
  unfold Cert.Spec.negTwo
  simp [Ideal.ofBits, Ideal.ieee, -EReal.coe_mul]; norm_num

/-- `0.25` (sign `+`, exponent `125`, significand `1`) denotes the real `1/4`. -/
theorem ofBits_quarter : Ideal.ofBits .f32 0x3E800000#32 = Cert.Spec.quarter := by
  unfold Cert.Spec.quarter
  simp [Ideal.ofBits, Ideal.ieee, -EReal.coe_mul]; norm_num

/-- The all-ones exponent with a zero significand and sign `+` denotes `+∞`. -/
theorem ofBits_top : Ideal.ofBits .f32 0x7F800000#32 = ⊤ := by
  simp [Ideal.ofBits, Ideal.ieee]

end Cert.Consts

end
-- ==== Proof.Payload.lean ====
/-
  The kernel body's arithmetic, read one element at a time at the ideal values (a float an extended real).

  The body takes a block of 1024 points of the first cloud (`x0`, three coordinates each) and a block of 512 points of the
  pre-scaled second cloud (`x1`, stored coordinate-major). From them it forms the 1024 × 512 table of squared distances
  `(|x|² + |s|²·¼) + ((x₀s₀ + x₁s₁) + x₂s₂)`, then the minimum of each row and of each column, and it folds those minima
  into the running minima by one more `min`. Every statement here is over variables of the literal vector types: which
  block of which array they are is another module's concern.
-/
import proofs.«160425_j23373212024987_2_alg».proof.Proof.Gen.KernelIdeal.Skeleton
import proofs.«160425_j23373212024987_2_alg».proof.Proof.Spec
import proofs.«160425_j23373212024987_2_alg».proof.Proof.Consts
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payload

open Idealize.ShloMosaic Idealize.ShloMosaic.ValueIdx
open Cert.KernelIdeal Cert.KernelIdeal.Gen
open scoped BigOperators

/-! ## Shape casts between a vector and its `[1, 1, a]` form -/

section Layout
variable {α : Type}

/-- A `[1, 1, a]` array cast to `[a]` reads, at `i`, the operand at `(0, 0, i)`: the two have the same row-major
    position. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- An `[a]` array cast to `[1, 1, a]` reads, at `(u, v, i)`, the operand at `i`, whatever the unit coordinates. -/
theorem shapeCast_a_11a_apply {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    simp only [hu, hv, Nat.zero_mul, Nat.zero_add])

end Layout

/-! ## The initial running minima: `+∞` everywhere (the literal `0x7F800000`, read in the constants' module) -/

theorem pay3_apply (y : S1x1x8192.Idx) : k0_pay3 (F := Ideal) y = ⊤ := Cert.Consts.ofBits_top

theorem pay4_apply (y : S1x1x8192.Idx) : k0_pay4 (F := Ideal) y = ⊤ := Cert.Consts.ofBits_top

/-! ## The running minima after a tile: one more `min` -/

/-- The row minima stored back: the running minimum read from the buffer, and the tile's row minimum. -/
theorem pay1_apply (v38 : FVec Ideal S1024 .f32) (v45 : Vec Ideal S1x1x1024 .f32) (r : Fin 1024) :
    k0_pay1 (F := Ideal) v38 v45 (ix3 (0 : Fin 1) (0 : Fin 1) r) = min (v45 (ix3 (0 : Fin 1) (0 : Fin 1) r)) (v38 (ix1 r)) := by
  unfold k0_pay1
  refine (shapeCast_a_11a_apply _ _ 0 0 r).trans ?_
  rw [minimumf_apply]
  exact congrArg (fun z => min z (v38 (ix1 r))) (shapeCast_11a_a_apply v45 _ r)

/-- The column minima stored back, likewise. -/
theorem pay2_apply (v39 : FVec Ideal S512 .f32) (v53 : Vec Ideal S1x1x512 .f32) (l : Fin 512) :
    k0_pay2 (F := Ideal) v39 v53 (ix3 (0 : Fin 1) (0 : Fin 1) l) = min (v53 (ix3 (0 : Fin 1) (0 : Fin 1) l)) (v39 (ix1 l)) := by
  unfold k0_pay2
  refine (shapeCast_a_11a_apply _ _ 0 0 l).trans ?_
  rw [minimumf_apply]
  exact congrArg (fun z => min z (v39 (ix1 l))) (shapeCast_11a_a_apply v53 _ l)

/-! ## A minimum over one axis, from `+∞`: the infimum over that axis's coordinates -/

/-- At the ideal values a `minimumf` reduction over ONE axis whose accumulator denotes `+∞` is, at each kept index, the
    infimum over the reduced axis's coordinates of the source at the kept index with that coordinate inserted: `min` commutes
    and associates, so the fold runs over the coordinates in any order, and a fold of `min` from `⊤` is the infimum. -/
theorem multiReduction_minimumf_single_inf {s t : Shape} {φ : FTy} {a : Fin s.rank} (src : FVec Ideal s φ)
    (acc : BitVec φ.bits) (h : s.Reduces [a] t) (hφ : FKind.Formats φ) (hacc : acc = FKind.minimumf.neutral φ hφ)
    (htop : Ideal.ofBits φ acc = ⊤) (j : t.Idx) :
    multiReduction .minimumf [a] t src acc h hφ hacc j = Finset.univ.inf fun k : Fin (s.size a) => src (h.lift j k) := by
  rw [multiReduction_minimumf_eq_fold]
  refine (h.fold_filter_drop_single _ _ src j).trans ?_
  show Finset.univ.fold min (Ideal.ofBits φ acc) (src ∘ h.lift j) = _
  rw [htop]
  rfl

/-- The row minima of the tile: at row `r` the infimum over the 512 columns. -/
theorem pay6_apply (x0 : Vec Ideal S1x1024x3 .f32) (x1 : Vec Ideal S1x3x512 .f32) (r : Fin 1024) :
    k0_pay6 (F := Ideal) x0 x1 (ix1 r) = Finset.univ.inf (fun l : Fin 512 => k0_pay5 (F := Ideal) x0 x1 (ix2 r l)) := by
  unfold k0_pay6
  refine (multiReduction_minimumf_single_inf _ _ _ _ _ Cert.Consts.ofBits_top _).trans ?_
  refine Finset.inf_congr rfl fun l _ => congrArg (k0_pay5 (F := Ideal) x0 x1) ?_
  funext c
  apply Fin.ext
  match c with
  | ⟨0, _⟩ => rfl
  | ⟨1, _⟩ => rfl

/-- The column minima of the tile: at column `l` the infimum over the 1024 rows. -/
theorem pay7_apply (x0 : Vec Ideal S1x1024x3 .f32) (x1 : Vec Ideal S1x3x512 .f32) (l : Fin 512) :
    k0_pay7 (F := Ideal) x0 x1 (ix1 l) = Finset.univ.inf (fun r : Fin 1024 => k0_pay5 (F := Ideal) x0 x1 (ix2 r l)) := by
  unfold k0_pay7
  refine (multiReduction_minimumf_single_inf _ _ _ _ _ Cert.Consts.ofBits_top _).trans ?_
  refine Finset.inf_congr rfl fun r _ => congrArg (k0_pay5 (F := Ideal) x0 x1) ?_
  funext c
  apply Fin.ext
  match c with
  | ⟨0, _⟩ => rfl
  | ⟨1, _⟩ => rfl

/-! ## A column vector: the cast to it, and its broadcast over the columns -/

section Layout2
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    simp only [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout2

/-! ## The two sums of squares -/

/-- A sum along the rows of a `1024 × 3` array: at row `r`, the sum over its three entries. -/
theorem rowSum_apply (v : FVec Ideal S1024x3 .f32) (h : S1024x3.Reduces [1] S1024) (hφ : FKind.Formats .f32)
    (hacc : (0x00000000#32 : BitVec 32) = FKind.add.neutral .f32 hφ) (r : Fin 1024) :
    multiReduction (F := Ideal) .add [1] S1024 v 0x00000000#32 h hφ hacc (ix1 r) = ∑ d : Fin 3, v (ix2 r d) := by
  refine (Ideal.multiReduction_add_single v _ h hφ hacc (ix1 r)).trans ?_
  refine Finset.sum_congr rfl fun d _ => congrArg v ?_
  funext c
  apply Fin.ext
  match c with
  | ⟨0, _⟩ => rfl
  | ⟨1, _⟩ => rfl

/-- A sum down the columns of a `3 × 512` array: at column `l`, the sum over its three entries. -/
theorem colSum_apply (v : FVec Ideal S3x512 .f32) (h : S3x512.Reduces [0] S512) (hφ : FKind.Formats .f32)
    (hacc : (0x00000000#32 : BitVec 32) = FKind.add.neutral .f32 hφ) (l : Fin 512) :
    multiReduction (F := Ideal) .add [0] S512 v 0x00000000#32 h hφ hacc (ix1 l) = ∑ d : Fin 3, v (ix2 d l) := by
  refine (Ideal.multiReduction_add_single v _ h hφ hacc (ix1 l)).trans ?_
  refine Finset.sum_congr rfl fun d _ => congrArg v ?_
  funext c
  apply Fin.ext
  match c with
  | ⟨0, _⟩ => rfl
  | ⟨1, _⟩ => rfl

/-! ## The table of squared distances -/

/-- The tile's table at `(r, l)`: with the unit axes of the two blocks dropped, `|x_r|²` is the sum along row `r` of the
    squares, `|s_l|²` the sum down column `l` of the squares, scaled by the literal `¼`; the three products `x_{r,d} · s_{d,l}`
    are a column of the first block and a row of the second, each spread over the table; and the sums are taken in the order
    `(|x|² + |s|²·¼) + ((p₀ + p₁) + p₂)`. -/
theorem pay5_apply (x0 : Vec Ideal S1x1024x3 .f32) (x1 : Vec Ideal S1x3x512 .f32) (r : Fin 1024) (l : Fin 512) :
    k0_pay5 (F := Ideal) x0 x1 (ix2 r l)
      = ((∑ d : Fin 3, x0 (ix3 (0 : Fin 1) r d) * x0 (ix3 (0 : Fin 1) r d))
          + (∑ d : Fin 3, x1 (ix3 (0 : Fin 1) d l) * x1 (ix3 (0 : Fin 1) d l)) * Cert.Spec.quarter)
        + ((x0 (ix3 (0 : Fin 1) r (0 : Fin 3)) * x1 (ix3 (0 : Fin 1) (0 : Fin 3) l)
            + x0 (ix3 (0 : Fin 1) r (1 : Fin 3)) * x1 (ix3 (0 : Fin 1) (1 : Fin 3) l))
          + x0 (ix3 (0 : Fin 1) r (2 : Fin 3)) * x1 (ix3 (0 : Fin 1) (2 : Fin 3) l)) := by
  unfold k0_pay5
  -- the index through the pointwise sums and products, down to the eight broadcasts
  simp only [addf_apply, mulf_apply]
  -- each broadcast, cast and slice read at its coordinates
  simp only [broadcastTo_a1_ab_apply, broadcastTo_1b_ab_apply, shapeCast_a_a1_apply, shapeCast_a_1a_apply, mulf_apply,
    broadcast_apply, slice2_axis1_eq, slice2_axis0_eq, shapeCast_1ab_ab_apply]
  -- what is left: the two sums of squares and the literal; the three products already agree
  refine congrArg₂ (· + ·) (congrArg₂ (· + ·) ?_ (congrArg₂ (· * ·) ?_ Cert.Consts.ofBits_quarter)) rfl
  · refine (rowSum_apply _ _ _ _ r).trans (Finset.sum_congr rfl fun d _ => ?_)
    rw [mulf_apply, shapeCast_1ab_ab_apply]
  · refine (colSum_apply _ _ _ _ l).trans (Finset.sum_congr rfl fun d _ => ?_)
    rw [mulf_apply, shapeCast_1ab_ab_apply]

end Cert.KernelIdeal.Payload

end
-- ==== Proof.HostSide.lean ====
/-
  The host side of the first program, read index by index at the ideal values.

  Around its one tiled region the program does a little array arithmetic. Before it: the second cloud transposed to
  coordinate-major and scaled by `-2`. After it: each of the two arrays of nearest-point distances reshaped, clamped at
  `0`, summed, divided by `32768`, and the two means added. The region visits the 4 × 8 × 16 grid of (batch, row tile,
  column tile) in row-major order, so point `t` has batch `t / 128`, row tile `t / 16 % 8` and column tile `t % 16`;
  what block of which array each window shows at point `t` follows from that.
-/
import proofs.«160425_j23373212024987_2_alg».proof.Proof.Gen.KernelIdeal.Frame
import proofs.«160425_j23373212024987_2_alg».proof.Proof.Spec
import proofs.«160425_j23373212024987_2_alg».proof.Proof.Consts
import Idealize.ShloMosaic.Lib.ValueIdx
import Idealize.ShloMosaic.Lib.Pipeline.Value
import Idealize.ShloMosaic.Lib.StableHlo.Run
import Idealize.ShloMosaic.PureOps.Ideal.Laws

set_option maxRecDepth 16384

noncomputable section

namespace Cert.KernelIdeal.HostSide

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ)

/-! ## The grid in closed form -/

/-- Point `t` of the 4 × 8 × 16 grid, row-major: batch `t / 128`, row tile `t / 16 % 8`, column tile `t % 16`. -/
theorem coords_eq : ∀ t : Fin cfg0.N, (grid0.coords t 0).val = t.val / 128 ∧ (grid0.coords t 1).val = t.val / 16 % 8
    ∧ (grid0.coords t 2).val = t.val % 16 :=
  (by decide +kernel : ∀ t : Fin grid0.N, (grid0.coords t 0).val = t.val / 128 ∧ (grid0.coords t 1).val = t.val / 16 % 8
    ∧ (grid0.coords t 2).val = t.val % 16)

/-- Where the body stores the row minima of point `t`: at offset `1024 ·` its row tile of the last axis. -/
theorem off1_eq : ∀ t : Fin cfg0.N, k0_off1 (grid0.coords t) = ![0, 0, (t.val / 16 % 8) * 1024] :=
  (by decide +kernel : ∀ t : Fin grid0.N, k0_off1 (grid0.coords t) = ![0, 0, (t.val / 16 % 8) * 1024])

/-- Where the body stores the column minima of point `t`: at offset `512 ·` its column tile of the last axis. -/
theorem off2_eq : ∀ t : Fin cfg0.N, k0_off2 (grid0.coords t) = ![0, 0, (t.val % 16) * 512] :=
  (by decide +kernel : ∀ t : Fin grid0.N, k0_off2 (grid0.coords t) = ![0, 0, (t.val % 16) * 512])

/-- The first window's block at point `t`: (batch, row tile, 0). -/
theorem index0_eq : ∀ t : Fin cfg0.N, win0_0.index t (0 : Fin 3) = t.val / 128 ∧ win0_0.index t (1 : Fin 3) = t.val / 16 % 8
    ∧ win0_0.index t (2 : Fin 3) = 0 :=
  (by decide +kernel : ∀ t : Fin grid0.N, win0_0.index t (0 : Fin 3) = t.val / 128 ∧ win0_0.index t (1 : Fin 3) = t.val / 16 % 8
    ∧ win0_0.index t (2 : Fin 3) = 0)

/-- The second window's block at point `t`: (batch, 0, column tile). -/
theorem index1_eq : ∀ t : Fin cfg0.N, win0_1.index t (0 : Fin 3) = t.val / 128 ∧ win0_1.index t (1 : Fin 3) = 0
    ∧ win0_1.index t (2 : Fin 3) = t.val % 16 :=
  (by decide +kernel : ∀ t : Fin grid0.N, win0_1.index t (0 : Fin 3) = t.val / 128 ∧ win0_1.index t (1 : Fin 3) = 0
    ∧ win0_1.index t (2 : Fin 3) = t.val % 16)

/-- The third window's block at point `t`: (batch, 0, 0). -/
theorem index2_eq : ∀ t : Fin cfg0.N, win0_2.index t (0 : Fin 3) = t.val / 128 ∧ win0_2.index t (1 : Fin 3) = 0
    ∧ win0_2.index t (2 : Fin 3) = 0 :=
  (by decide +kernel : ∀ t : Fin grid0.N, win0_2.index t (0 : Fin 3) = t.val / 128 ∧ win0_2.index t (1 : Fin 3) = 0
    ∧ win0_2.index t (2 : Fin 3) = 0)

/-- The fourth window's block at point `t`: (batch, 0, 0). -/
theorem index3_eq : ∀ t : Fin cfg0.N, win0_3.index t (0 : Fin 3) = t.val / 128 ∧ win0_3.index t (1 : Fin 3) = 0
    ∧ win0_3.index t (2 : Fin 3) = 0 :=
  (by decide +kernel : ∀ t : Fin grid0.N, win0_3.index t (0 : Fin 3) = t.val / 128 ∧ win0_3.index t (1 : Fin 3) = 0
    ∧ win0_3.index t (2 : Fin 3) = 0)

/-! ## Before the region: the second cloud, coordinate-major and scaled by `-2` -/

/-- The array the region's second window reads is, as a term, the product of the broadcast constant and the transposed
    second input. -/
theorem V_main_v2 (c : Dev nD) :
    Gen.V m c main_v2
      = (mulf (broadcastInDim S4x3x8192 ![] bcast_S_S4x3x8192 (constant (F := Ideal) S_ .f32 0xC0000000#32))
          (transpose S4x3x8192 [0, 2, 1] (m ((c : Thread nD τ).loc main_arg1)) transposes_S4x8192x3_S4x3x8192_0_2_1)
          : (⟨S4x3x8192, .f32⟩ : BufTy).Contents (Elt Ideal)) := by
  show StableHlo.after hostOps0 (fun b => m (c, b)) (Proc.devRef .tc main_v2) = _
  after_results

/-- Read at (batch, coordinate, point): `-2` times the second input at (batch, point, coordinate). -/
theorem V_scaled (c : Dev nD) (b : Fin 4) (d : Fin 3) (n : Fin 8192) :
    Gen.V m c main_v2 (ix3 b d n) = Cert.Spec.negTwo * m ((c : Thread nD τ).loc main_arg1) (ix3 b n d) := by
  rw [V_main_v2, mulf_apply]
  congr 1
  · show Ideal.ofBits .f32 0xC0000000#32 = _
    exact Cert.Consts.ofBits_negTwo
  · exact transpose_apply _ _ _ _ (ix3 b n d) (fun a => by
      match a with
      | ⟨0, _⟩ => rfl
      | ⟨1, _⟩ => rfl
      | ⟨2, _⟩ => rfl)

/-! ## The input windows' blocks, index by index -/

/-- The grid has 512 points. -/
theorem t_lt (t : Fin cfg0.N) : t.val < 512 := lt_of_lt_of_eq t.isLt N_0

/-- A point of the first window's block has coordinates below its extents 1, 1024, 3. -/
theorem y0_lt (t : Fin cfg0.N) (y : ((cfg0.win 0).xblock (cfg0.grid.coords t)).Idx) :
    (y 0).val < 1 ∧ (y 1).val < 1024 ∧ (y 2).val < 3 := ⟨(y 0).isLt, (y 1).isLt, (y 2).isLt⟩

/-- A point of the second window's block has coordinates below its extents 1, 3, 512. -/
theorem y1_lt (t : Fin cfg0.N) (y : ((cfg0.win 1).xblock (cfg0.grid.coords t)).Idx) :
    (y 0).val < 1 ∧ (y 1).val < 3 ∧ (y 2).val < 512 := ⟨(y 0).isLt, (y 1).isLt, (y 2).isLt⟩

/-- The first window's block at point `t` is rows `1024 · (t / 16 % 8) …` of batch `t / 128` of the first input: at any
    index `k` of the input with those coordinates. -/
theorem iblk0_apply (c : Dev nD) (t : Fin cfg0.N) (y : ((cfg0.win 0).xblock (cfg0.grid.coords t)).Idx) (k : S4x8192x3.Idx)
    (hk0 : (k 0).val = t.val / 128) (hk1 : (k 1).val = (t.val / 16 % 8) * 1024 + (y 1).val) (hk2 : (k 2).val = (y 2).val) :
    Gen.iblk m c 0 t y = m ((c : Thread nD τ).loc main_arg0) k := by
  obtain ⟨e0, e1, e2⟩ := index0_eq t
  obtain ⟨l0, l1, l2⟩ := y0_lt t y
  unfold Gen.iblk
  rw [View.read_apply]
  show Gen.V m c main_arg0 _ = m ((c : Thread nD τ).loc main_arg0) _
  rw [Gen.V_main_arg0]
  congr 1
  funext a
  apply Fin.ext
  match a with
  | ⟨0, _⟩ => show win0_0.index t (0 : Fin 3) * 1 + 1 * (y 0).val = (k 0).val; rw [e0, hk0]; omega
  | ⟨1, _⟩ => show win0_0.index t (1 : Fin 3) * 1024 + 1 * (y 1).val = (k 1).val; rw [e1, hk1]; omega
  | ⟨2, _⟩ => show win0_0.index t (2 : Fin 3) * 3 + 1 * (y 2).val = (k 2).val; rw [e2, hk2]; omega

/-- The same with the index of the input written out. -/
theorem iblk0_eq (c : Dev nD) (t : Fin cfg0.N) (y : ((cfg0.win 0).xblock (cfg0.grid.coords t)).Idx) :
    Gen.iblk m c 0 t y = m ((c : Thread nD τ).loc main_arg0)
      (ix3 (⟨t.val / 128, by have := t_lt t; omega⟩ : Fin 4)
        (⟨(t.val / 16 % 8) * 1024 + (y 1).val, by have := (y0_lt t y).2.1; omega⟩ : Fin 8192)
        (⟨(y 2).val, (y0_lt t y).2.2⟩ : Fin 3)) :=
  iblk0_apply m c t y _ rfl rfl rfl

/-- The second window's block at point `t` is columns `512 · (t % 16) …` of batch `t / 128` of the scaled, coordinate-major
    second cloud: `-2` times the second input at (batch, point, coordinate). -/
theorem iblk1_apply (c : Dev nD) (t : Fin cfg0.N) (y : ((cfg0.win 1).xblock (cfg0.grid.coords t)).Idx) (b : Fin 4) (n : Fin 8192)
    (d : Fin 3) (hb : b.val = t.val / 128) (hn : n.val = (t.val % 16) * 512 + (y 2).val) (hd : d.val = (y 1).val) :
    Gen.iblk m c 1 t y = Cert.Spec.negTwo * m ((c : Thread nD τ).loc main_arg1) (ix3 b n d) := by
  obtain ⟨e0, e1, e2⟩ := index1_eq t
  obtain ⟨l0, l1, l2⟩ := y1_lt t y
  unfold Gen.iblk
  rw [View.read_apply]
  show Gen.V m c main_v2 (((cfg0.win 1).blk t).view.emb y) = _
  have hidx : ((cfg0.win 1).blk t).view.emb y = ix3 b d n := by
    funext a
    apply Fin.ext
    match a with
    | ⟨0, _⟩ => show win0_1.index t (0 : Fin 3) * 1 + 1 * (y 0).val = b.val; rw [e0, hb]; omega
    | ⟨1, _⟩ => show win0_1.index t (1 : Fin 3) * 3 + 1 * (y 1).val = d.val; rw [e1, hd]; omega
    | ⟨2, _⟩ => show win0_1.index t (2 : Fin 3) * 512 + 1 * (y 2).val = n.val; rw [e2, hn]; omega
  rw [hidx]
  exact V_scaled m c b d n

/-- The same with the index of the input written out. -/
theorem iblk1_eq (c : Dev nD) (t : Fin cfg0.N) (y : ((cfg0.win 1).xblock (cfg0.grid.coords t)).Idx) :
    Gen.iblk m c 1 t y = Cert.Spec.negTwo * m ((c : Thread nD τ).loc main_arg1)
      (ix3 (⟨t.val / 128, by have := t_lt t; omega⟩ : Fin 4)
        (⟨(t.val % 16) * 512 + (y 2).val, by have := (y1_lt t y).2.2; omega⟩ : Fin 8192)
        (⟨(y 1).val, (y1_lt t y).2.1⟩ : Fin 3)) :=
  iblk1_apply m c t y _ _ _ rfl rfl rfl

/-! ## After the region: the two means of the clamped distances, added -/

/-- An array of distances `[4, 1, 8192]` reshaped to `[4, 8192]` and clamped below at the constant `0`. -/
abbrev clampK (G : (⟨S4x1x8192, .f32⟩ : BufTy).Contents (Elt Ideal)) : (⟨S4x8192, .f32⟩ : BufTy).Contents (Elt Ideal) :=
  maximumf (shapeCast S4x8192 G shapeCasts_S4x1x8192_S4x8192)
    (broadcastInDim S4x8192 ![] bcast_S_S4x8192 (constant (F := Ideal) S_ .f32 0x00000000#32))

/-- Its sum over both axes from the constant `0`, divided by the constant `32768`. -/
abbrev meanK (G : (⟨S4x1x8192, .f32⟩ : BufTy).Contents (Elt Ideal)) : (⟨S_, .f32⟩ : BufTy).Contents (Elt Ideal) :=
  Host.divf (F := Ideal)
    (Host.reduceAdd (F := Ideal) (clampK G) (constant (F := Ideal) S_ .f32 0x00000000#32) reducesTo_S4x8192_S_d0_1 h_S_)
    (constant (F := Ideal) S_ .f32 0x47000000#32)

/-- What the operations after the region compute from the region's two output arrays. -/
def tailK (G2 G3 : (⟨S4x1x8192, .f32⟩ : BufTy).Contents (Elt Ideal)) : (⟨S_, .f32⟩ : BufTy).Contents (Elt Ideal) :=
  (addf (meanK G2 : FVec Ideal S_ .f32) (meanK G3 : FVec Ideal S_ .f32) : FVec Ideal S_ .f32)

/-- The program's result is that function of the two arrays the region leaves, whatever the region's run. -/
theorem tail_value (dats : (p : Fin 1) → (c : Dev nD) → Pipeline.Dat τ (Elt Ideal) Unit ℕ (UR sig nD τ) ℕ (cfgs p) c) (c : Dev nD) :
    Pipeline.afterTail₀ cfgs dats 0 (Gen.V0 m) [hostOps1] c main_v14
      = tailK ((dats 0 c).arrAt 2 cfg0.N) ((dats 0 c).arrAt 3 cfg0.N) := by
  unfold Pipeline.afterTail₀
  show StableHlo.after hostOps1 _ (Proc.devRef .tc main_v14) = _
  after_results
  rw [(Pipeline.withArrays_arr spec0 launch0.win.arr_inj c _ _ 2 :
        Pipeline.withArrays _ c _ _ (Proc.devRef .tc main_v3_0) = _),
      (Pipeline.withArrays_arr spec0 launch0.win.arr_inj c _ _ 3 :
        Pipeline.withArrays _ c _ _ (Proc.devRef .tc main_v3_1) = _)]
  rfl

/-- The clamped array at (batch, point): the distance at (batch, 0, point), clamped below at `0`. -/
theorem clamp_apply (G : (⟨S4x1x8192, .f32⟩ : BufTy).Contents (Elt Ideal)) (b : Fin 4) (n : Fin 8192) :
    clampK G (ix2 b n) = max (G (ix3 b (0 : Fin 1) n)) 0 := by
  show max (shapeCast S4x8192 G shapeCasts_S4x1x8192_S4x8192 (ix2 b n)) (Ideal.ofBits .f32 0x00000000#32) = _
  rw [Cert.Consts.ofBits_zero, shapeCast_apply G _ (ix2 b n) (ix3 b (0 : Fin 1) n) (by
    rw [Shape.rowMajor_val_three, Shape.rowMajor_val_two]
    show (b.val * 1 + 0) * 8192 + n.val = b.val * 8192 + n.val
    omega)]

end Cert.KernelIdeal.HostSide

end
-- ==== Proof.Tiles.lean ====
/-
  The tiles of one batch, as sets of columns and rows, and the running minimum over them.

  A tile of columns is 512 consecutive columns, so an infimum over it is an infimum over the offsets `0 … 511` inside the
  tile; likewise a tile of rows and the offsets `0 … 1023`. A sequence that starts as the first tile's minimum (on the rows
  of the first row of tiles, `⊤` elsewhere) and at each later tile takes one more `min` on the rows of that tile's row of
  tiles is, after all 128 tiles, the minimum over every column; and the same for the columns.
-/
import proofs.«160425_j23373212024987_2_alg».proof.Proof.Spec

noncomputable section

namespace Cert.Tiles

open Cert.Spec

/-! ## An infimum over a tile, by the offset inside the tile -/

/-- Column tile `j` is the columns `j · 512 + l`, `l < 512`: both infima are below every term of the other. -/
theorem inf_colTile (g : Fin 8192 → EReal) (j : ℕ) (hj : j < 16) :
    (colTile j).inf g = Finset.univ.inf (fun l : Fin 512 => g ⟨j * 512 + l.val, by omega⟩) := by
  apply le_antisymm
  · refine Finset.le_inf fun l _ => Finset.inf_le ?_
    simp only [colTile, Finset.mem_filter, Finset.mem_univ, true_and]
    have := l.isLt
    omega
  · refine Finset.le_inf fun m hm => ?_
    simp only [colTile, Finset.mem_filter, Finset.mem_univ, true_and] at hm
    have hlt : m.val - j * 512 < 512 := by have := m.isLt; omega
    refine (Finset.inf_le (Finset.mem_univ (⟨m.val - j * 512, hlt⟩ : Fin 512))).trans (le_of_eq ?_)
    exact congrArg g (Fin.ext (by show j * 512 + (m.val - j * 512) = m.val; omega))

/-- Row tile `i` is the rows `i · 1024 + r`, `r < 1024`. -/
theorem inf_rowTile (g : Fin 8192 → EReal) (i : ℕ) (hi : i < 8) :
    (rowTile i).inf g = Finset.univ.inf (fun r : Fin 1024 => g ⟨i * 1024 + r.val, by omega⟩) := by
  apply le_antisymm
  · refine Finset.le_inf fun r _ => Finset.inf_le ?_
    simp only [rowTile, Finset.mem_filter, Finset.mem_univ, true_and]
    have := r.isLt
    omega
  · refine Finset.le_inf fun n hn => ?_
    simp only [rowTile, Finset.mem_filter, Finset.mem_univ, true_and] at hn
    have hlt : n.val - i * 1024 < 1024 := by have := n.isLt; omega
    refine (Finset.inf_le (Finset.mem_univ (⟨n.val - i * 1024, hlt⟩ : Fin 1024))).trans (le_of_eq ?_)
    exact congrArg g (Fin.ext (by show i * 1024 + (n.val - i * 1024) = n.val; omega))

/-! ## The running minimum over the 128 tiles of a batch -/

/-- The row minima: after tile `k` the running minimum of row `n` is the infimum over the columns seen so far, by
    induction on `k`; after the last tile every column has been seen. -/
theorem rows_acc (f : Fin 8192 → Fin 8192 → EReal) (A : ℕ → Fin 8192 → EReal)
    (h0 : ∀ n, A 0 n = if n.val / 1024 = 0 then min ⊤ ((colTile 0).inf (f n)) else ⊤)
    (hs : ∀ k, k + 1 < 128 → ∀ n, A (k + 1) n
      = if n.val / 1024 = (k + 1) / 16 then min (A k n) ((colTile ((k + 1) % 16)).inf (f n)) else A k n) :
    ∀ n, A 127 n = Finset.univ.inf (f n) := by
  have key : ∀ k, k < 128 → ∀ n, A k n = (seen1 k n).inf (f n) := by
    intro k
    induction k with
    | zero =>
      intro _ n
      rw [h0 n, inf_seen1_zero]
    | succ k ih =>
      intro hk n
      rw [hs k hk n, inf_seen1_succ (f n) k hk n, ih (by omega) n]
  intro n
  rw [key 127 (by omega) n, seen1_last]

/-- The column minima, likewise: after tile `k` the running minimum of column `m` is the infimum over the rows seen so far. -/
theorem cols_acc (f : Fin 8192 → Fin 8192 → EReal) (A : ℕ → Fin 8192 → EReal)
    (h0 : ∀ m, A 0 m = if m.val / 512 = 0 then min ⊤ ((rowTile 0).inf (fun n => f n m)) else ⊤)
    (hs : ∀ k, k + 1 < 128 → ∀ m, A (k + 1) m
      = if m.val / 512 = (k + 1) % 16 then min (A k m) ((rowTile ((k + 1) / 16)).inf (fun n => f n m)) else A k m) :
    ∀ m, A 127 m = Finset.univ.inf (fun n => f n m) := by
  have key : ∀ k, k < 128 → ∀ m, A k m = (seen2 k m).inf (fun n => f n m) := by
    intro k
    induction k with
    | zero =>
      intro _ m
      rw [h0 m, inf_seen2_zero]
    | succ k ih =>
      intro hk m
      rw [hs k hk m, inf_seen2_succ (fun n => f n m) k hk m, ih (by omega) m]
  intro m
  rw [key 127 (by omega) m, seen2_last]

end Cert.Tiles

end
-- ==== Proof.TileValue.lean ====
/-
  One tile of the region, in values: what the body computes from the two blocks a grid point shows it, and what its two
  stores leave in the running minima.

  Grid point `t` has batch `t / 128`, row tile `t / 16 % 8` and column tile `t % 16`. Its first block is rows
  `1024 · (t / 16 % 8) …` of the first cloud, its second block columns `512 · (t % 16) …` of the second cloud scaled by
  `-2`. So the body's table entry at `(r, l)` is the squared distance between point `1024 · (t / 16 % 8) + r` of the first
  cloud and point `512 · (t % 16) + l` of the second, its row minima are infima over the column tile and its column
  minima infima over the row tile; and each store takes one more `min` on the entries of its tile and leaves the rest.
-/
import proofs.«160425_j23373212024987_2_alg».proof.Proof.BodyRun
import proofs.«160425_j23373212024987_2_alg».proof.Proof.Payload
import proofs.«160425_j23373212024987_2_alg».proof.Proof.HostSide
import proofs.«160425_j23373212024987_2_alg».proof.Proof.Tiles
import proofs.«160425_j23373212024987_2_alg».proof.Proof.Spec

set_option maxRecDepth 16384

noncomputable section

namespace Cert.KernelIdeal.TileValue

open Idealize.ShloMosaic Idealize.ShloMosaic.TcCoe Idealize.ShloMosaic.ValueIdx
open Idealize.SL Idealize.SL.Sem
open Cert.KernelIdeal Cert.KernelIdeal.Gen
open scoped BigOperators

variable (m : (ℓ : Loc nD τ sig) → Buf (Elt Ideal) ℓ)

/-- The first cloud as launched on core `c`: batch, point, coordinate. -/
abbrev cx (c : Dev nD) : Cert.Spec.Cloud := fun b n d => m ((c : Thread nD τ).loc main_arg0) (ix3 b n d)
/-- The second cloud as launched on core `c`. -/
abbrev cy (c : Dev nD) : Cert.Spec.Cloud := fun b n d => m ((c : Thread nD τ).loc main_arg1) (ix3 b n d)

/-! ## The tile's table and its minima -/

/-- The table entry at `(r, l)` of point `t`'s tile is the squared distance of the two points it stands for: each entry
    of the first block is a coordinate of the first cloud, each entry of the second block `-2` times a coordinate of the
    second, and the body's arithmetic is the first arrangement of the squared distance, term for term. -/
theorem cell_apply (c : Dev nD) (t : Fin cfg0.N) (r : Fin 1024) (l : Fin 512) :
    k0_pay5 (F := Ideal) (iblk m c 0 t) (iblk m c 1 t) (ix2 r l)
      = Cert.Spec.dK (cx m c) (cy m c) ⟨t.val / 128, by have := HostSide.t_lt t; omega⟩
          ⟨(t.val / 16 % 8) * 1024 + r.val, by have := r.isLt; omega⟩
          ⟨(t.val % 16) * 512 + l.val, by have := l.isLt; omega⟩ := by
  have h0 : ∀ d : Fin 3, iblk m c 0 t (ix3 (0 : Fin 1) r d)
      = cx m c ⟨t.val / 128, by have := HostSide.t_lt t; omega⟩ ⟨(t.val / 16 % 8) * 1024 + r.val, by have := r.isLt; omega⟩ d :=
    fun d => HostSide.iblk0_apply m c t (ix3 (0 : Fin 1) r d) (ix3 _ _ d) rfl rfl rfl
  have h1 : ∀ d : Fin 3, iblk m c 1 t (ix3 (0 : Fin 1) d l)
      = Cert.Spec.negTwo * cy m c ⟨t.val / 128, by have := HostSide.t_lt t; omega⟩
          ⟨(t.val % 16) * 512 + l.val, by have := l.isLt; omega⟩ d :=
    fun d => HostSide.iblk1_apply m c t (ix3 (0 : Fin 1) d l) _ _ d rfl rfl rfl
  refine (Payload.pay5_apply _ _ r l).trans ?_
  simp only [h0, h1]
  rfl

/-- The tile's row minimum at row `r`: the infimum, over the columns of the point's column tile, of the squared distance
    from the row's point. -/
theorem tileRows_apply (c : Dev nD) (t : Fin cfg0.N) (r : Fin 1024) :
    k0_pay6 (F := Ideal) (iblk m c 0 t) (iblk m c 1 t) (ix1 r)
      = (Cert.Spec.colTile (t.val % 16)).inf (fun mm => Cert.Spec.dK (cx m c) (cy m c)
          ⟨t.val / 128, by have := HostSide.t_lt t; omega⟩ ⟨(t.val / 16 % 8) * 1024 + r.val, by have := r.isLt; omega⟩ mm) := by
  refine (Payload.pay6_apply _ _ r).trans ?_
  refine Eq.trans ?_ (Tiles.inf_colTile _ (t.val % 16) (Nat.mod_lt _ (by norm_num))).symm
  exact Finset.inf_congr rfl fun l _ => cell_apply m c t r l

/-- The tile's column minimum at column `l`: the infimum, over the rows of the point's row tile, of the squared distance
    to the column's point. -/
theorem tileCols_apply (c : Dev nD) (t : Fin cfg0.N) (l : Fin 512) :
    k0_pay7 (F := Ideal) (iblk m c 0 t) (iblk m c 1 t) (ix1 l)
      = (Cert.Spec.rowTile (t.val / 16 % 8)).inf (fun n => Cert.Spec.dK (cx m c) (cy m c)
          ⟨t.val / 128, by have := HostSide.t_lt t; omega⟩ n ⟨(t.val % 16) * 512 + l.val, by have := l.isLt; omega⟩) := by
  refine (Payload.pay7_apply _ _ l).trans ?_
  refine Eq.trans ?_ (Tiles.inf_rowTile _ (t.val / 16 % 8) (Nat.mod_lt _ (by norm_num))).symm
  exact Finset.inf_congr rfl fun r _ => cell_apply m c t r l

/-! ## One store into the running minima -/

/-- The store of point `t`'s row minima, read at entry `n` of the 8192: the entries of the point's row tile take one more
    `min`, with the tile's row minimum at the entry's offset in the tile; the others are left. The store's rectangle is
    the last axis's entries `1024 · (t / 16 % 8) …`, 1024 of them. -/
theorem updRows_apply (t : Fin cfg0.N) (v38 : FVec Ideal S1024 .f32) (prev : Vec Ideal S1x1x8192 .f32) (n : Fin 8192) :
    Body.updRows (grid0.coords t) v38 prev (ix3 (0 : Fin 1) (0 : Fin 1) n)
      = if n.val / 1024 = t.val / 16 % 8 then
          min (prev (ix3 (0 : Fin 1) (0 : Fin 1) n)) (v38 (ix1 ⟨n.val % 1024, Nat.mod_lt _ (by norm_num)⟩))
        else prev (ix3 (0 : Fin 1) (0 : Fin 1) n) := by
  have hcond : (∀ a, k0_off1 (grid0.coords t) a ≤ ((ix3 (0 : Fin 1) (0 : Fin 1) n) a).val
        ∧ ((ix3 (0 : Fin 1) (0 : Fin 1) n) a).val < k0_off1 (grid0.coords t) a + S1x1x1024.size a)
      ↔ n.val / 1024 = t.val / 16 % 8 := by
    rw [HostSide.off1_eq t]
    constructor
    · intro h
      have h2 : (t.val / 16 % 8) * 1024 ≤ n.val ∧ n.val < (t.val / 16 % 8) * 1024 + 1024 := h (2 : Fin 3)
      omega
    · intro h a
      match a with
      | ⟨0, _⟩ => show (0 : ℕ) ≤ 0 ∧ (0 : ℕ) < 0 + 1; omega
      | ⟨1, _⟩ => show (0 : ℕ) ≤ 0 ∧ (0 : ℕ) < 0 + 1; omega
      | ⟨2, _⟩ => show (t.val / 16 % 8) * 1024 ≤ n.val ∧ n.val < (t.val / 16 % 8) * 1024 + 1024; omega
  unfold Body.updRows
  by_cases hc : n.val / 1024 = t.val / 16 % 8
  · rw [if_pos hc]
    have h := hcond.mpr hc
    refine (dif_pos h).trans ?_
    -- the entry's place in the rectangle: its offset in the tile
    have hloc : Rect.unitLocal (s := S1x1x8192) (off := k0_off1 (grid0.coords t)) (size := S1x1x1024.size)
        (ix3 (0 : Fin 1) (0 : Fin 1) n) h
        = ix3 (0 : Fin 1) (0 : Fin 1) (⟨n.val % 1024, Nat.mod_lt _ (by norm_num)⟩ : Fin 1024) := by
      funext a
      apply Fin.ext
      rw [Rect.unitLocal_val, HostSide.off1_eq t]
      match a with
      | ⟨0, _⟩ => rfl
      | ⟨1, _⟩ => rfl
      | ⟨2, _⟩ => show n.val - (t.val / 16 % 8) * 1024 = n.val % 1024; omega
    rw [hloc]
    refine (Payload.pay1_apply _ _ _).trans ?_
    -- what the load before the store read there: the entry itself
    refine congrArg (fun z => min z (v38 (ix1 ⟨n.val % 1024, Nat.mod_lt _ (by norm_num)⟩))) ?_
    show prev _ = prev _
    refine congrArg prev ?_
    funext a
    apply Fin.ext
    match a with
    | ⟨0, _⟩ =>
      have e : k0_off1 (grid0.coords t) (0 : Fin 3) = 0 := congrFun (HostSide.off1_eq t) 0
      show k0_off1 (grid0.coords t) (0 : Fin 3) + 1 * 0 = 0
      omega
    | ⟨1, _⟩ =>
      have e : k0_off1 (grid0.coords t) (1 : Fin 3) = 0 := congrFun (HostSide.off1_eq t) 1
      show k0_off1 (grid0.coords t) (1 : Fin 3) + 1 * 0 = 0
      omega
    | ⟨2, _⟩ =>
      have e : k0_off1 (grid0.coords t) (2 : Fin 3) = (t.val / 16 % 8) * 1024 := congrFun (HostSide.off1_eq t) 2
      show k0_off1 (grid0.coords t) (2 : Fin 3) + 1 * (n.val % 1024) = n.val
      omega
  · rw [if_neg hc]
    exact dif_neg fun h => hc (hcond.mp h)

/-- The store of point `t`'s column minima, likewise: the rectangle is the entries `512 · (t % 16) …`, 512 of them. -/
theorem updCols_apply (t : Fin cfg0.N) (v39 : FVec Ideal S512 .f32) (prev : Vec Ideal S1x1x8192 .f32) (mm : Fin 8192) :
    Body.updCols (grid0.coords t) v39 prev (ix3 (0 : Fin 1) (0 : Fin 1) mm)
      = if mm.val / 512 = t.val % 16 then
          min (prev (ix3 (0 : Fin 1) (0 : Fin 1) mm)) (v39 (ix1 ⟨mm.val % 512, Nat.mod_lt _ (by norm_num)⟩))
        else prev (ix3 (0 : Fin 1) (0 : Fin 1) mm) := by
  have hcond : (∀ a, k0_off2 (grid0.coords t) a ≤ ((ix3 (0 : Fin 1) (0 : Fin 1) mm) a).val
        ∧ ((ix3 (0 : Fin 1) (0 : Fin 1) mm) a).val < k0_off2 (grid0.coords t) a + S1x1x512.size a)
      ↔ mm.val / 512 = t.val % 16 := by
    rw [HostSide.off2_eq t]
    constructor
    · intro h
      have h2 : (t.val % 16) * 512 ≤ mm.val ∧ mm.val < (t.val % 16) * 512 + 512 := h (2 : Fin 3)
      omega
    · intro h a
      match a with
      | ⟨0, _⟩ => show (0 : ℕ) ≤ 0 ∧ (0 : ℕ) < 0 + 1; omega
      | ⟨1, _⟩ => show (0 : ℕ) ≤ 0 ∧ (0 : ℕ) < 0 + 1; omega
      | ⟨2, _⟩ => show (t.val % 16) * 512 ≤ mm.val ∧ mm.val < (t.val % 16) * 512 + 512; omega
  unfold Body.updCols
  by_cases hc : mm.val / 512 = t.val % 16
  · rw [if_pos hc]
    have h := hcond.mpr hc
    refine (dif_pos h).trans ?_
    have hloc : Rect.unitLocal (s := S1x1x8192) (off := k0_off2 (grid0.coords t)) (size := S1x1x512.size)
        (ix3 (0 : Fin 1) (0 : Fin 1) mm) h
        = ix3 (0 : Fin 1) (0 : Fin 1) (⟨mm.val % 512, Nat.mod_lt _ (by norm_num)⟩ : Fin 512) := by
      funext a
      apply Fin.ext
      rw [Rect.unitLocal_val, HostSide.off2_eq t]
      match a with
      | ⟨0, _⟩ => rfl
      | ⟨1, _⟩ => rfl
      | ⟨2, _⟩ => show mm.val - (t.val % 16) * 512 = mm.val % 512; omega
    rw [hloc]
    refine (Payload.pay2_apply _ _ _).trans ?_
    refine congrArg (fun z => min z (v39 (ix1 ⟨mm.val % 512, Nat.mod_lt _ (by norm_num)⟩))) ?_
    show prev _ = prev _
    refine congrArg prev ?_
    funext a
    apply Fin.ext
    match a with
    | ⟨0, _⟩ =>
      have e : k0_off2 (grid0.coords t) (0 : Fin 3) = 0 := congrFun (HostSide.off2_eq t) 0
      show k0_off2 (grid0.coords t) (0 : Fin 3) + 1 * 0 = 0
      omega
    | ⟨1, _⟩ =>
      have e : k0_off2 (grid0.coords t) (1 : Fin 3) = 0 := congrFun (HostSide.off2_eq t) 1
      show k0_off2 (grid0.coords t) (1 : Fin 3) + 1 * 0 = 0
      omega
    | ⟨2, _⟩ =>
      have e : k0_off2 (grid0.coords t) (2 : Fin 3) = (t.val % 16) * 512 := congrFun (HostSide.off2_eq t) 2
      show k0_off2 (grid0.coords t) (2 : Fin 3) + 1 * (mm.val % 512) = mm.val
      omega
  · rw [if_neg hc]
    exact dif_neg fun h => hc (hcond.mp h)

/-! ## One tile's step of the running minima -/

/-- The row minima after point `t`, from what they were before: on the rows of the point's row tile one more `min`, with
    the infimum over the point's column tile of the squared distances from that row's point. -/
theorem rowsStep (c : Dev nD) (t : Fin cfg0.N) (prev : Vec Ideal S1x1x8192 .f32) (n : Fin 8192) :
    Body.updRows (grid0.coords t) (k0_pay6 (F := Ideal) (iblk m c 0 t) (iblk m c 1 t)) prev (ix3 (0 : Fin 1) (0 : Fin 1) n)
      = if n.val / 1024 = t.val / 16 % 8 then
          min (prev (ix3 (0 : Fin 1) (0 : Fin 1) n))
            ((Cert.Spec.colTile (t.val % 16)).inf (fun mm => Cert.Spec.dK (cx m c) (cy m c)
              ⟨t.val / 128, by have := HostSide.t_lt t; omega⟩ n mm))
        else prev (ix3 (0 : Fin 1) (0 : Fin 1) n) := by
  rw [updRows_apply]
  by_cases hc : n.val / 1024 = t.val / 16 % 8
  · rw [if_pos hc, if_pos hc, tileRows_apply m c t ⟨n.val % 1024, Nat.mod_lt _ (by norm_num)⟩]
    have hn : (⟨(t.val / 16 % 8) * 1024 + n.val % 1024, by have := n.isLt; omega⟩ : Fin 8192) = n :=
      Fin.ext (by show (t.val / 16 % 8) * 1024 + n.val % 1024 = n.val; omega)
    rw [hn]
  · rw [if_neg hc, if_neg hc]

/-- The column minima after point `t`, likewise: on the columns of the point's column tile one more `min`, with the
    infimum over the point's row tile of the squared distances to that column's point. -/
theorem colsStep (c : Dev nD) (t : Fin cfg0.N) (prev : Vec Ideal S1x1x8192 .f32) (mm : Fin 8192) :
    Body.updCols (grid0.coords t) (k0_pay7 (F := Ideal) (iblk m c 0 t) (iblk m c 1 t)) prev (ix3 (0 : Fin 1) (0 : Fin 1) mm)
      = if mm.val / 512 = t.val % 16 then
          min (prev (ix3 (0 : Fin 1) (0 : Fin 1) mm))
            ((Cert.Spec.rowTile (t.val / 16 % 8)).inf (fun n => Cert.Spec.dK (cx m c) (cy m c)
              ⟨t.val / 128, by have := HostSide.t_lt t; omega⟩ n mm))
        else prev (ix3 (0 : Fin 1) (0 : Fin 1) mm) := by
  rw [updCols_apply]
  by_cases hc : mm.val / 512 = t.val % 16
  · rw [if_pos hc, if_pos hc, tileCols_apply m c t ⟨mm.val % 512, Nat.mod_lt _ (by norm_num)⟩]
    have hm : (⟨(t.val % 16) * 512 + mm.val % 512, by have := mm.isLt; omega⟩ : Fin 8192) = mm :=
      Fin.ext (by show (t.val % 16) * 512 + mm.val % 512 = mm.val; omega)
    rw [hm]
  · rw [if_neg hc, if_neg hc]

end Cert.KernelIdeal.TileValue

end
-- ==== Proof.KernelValue.lean ====
/-
  What the kernel leaves in its two result arrays, at the ideal instance.

  Within a batch the 128 tiles are visited in row-major order; the row-minima buffer after tile `k` holds, at row `n`,
  the minimum of the squared distances to the columns of the tiles seen so far, so after the batch's last tile the
  minimum over all 8192 columns; likewise the column minima. The batch's last point writes both buffers back.
-/
import proofs.«160425_j23373212024987_2_alg».proof.Proof.Body
import proofs.«160425_j23373212024987_2_alg».proof.Proof.TileValue
import proofs.«160425_j23373212024987_2_alg».proof.Proof.Tiles
import proofs.«160425_j23373212024987_2_alg».proof.Proof.Payload

set_option maxRecDepth 16384

noncomputable section

namespace Cert.KernelIdeal.KernelValue

open Cert.KernelIdeal Cert.KernelIdeal.Gen Cert.KernelIdeal.Body Cert.KernelIdeal.TileValue
open Idealize.ShloMosaic Idealize.ShloMosaic.TcCoe Idealize.ShloMosaic.ValueIdx Idealize.SL.Sem

variable (m : (ℓ : Loc nD τ sig) → Buf (Elt Ideal) ℓ)

theorem acc1_congr (c : Dev nD) {v v' : ℕ} (e : v = v') (hv : v < cfg0.N) (hv' : v' < cfg0.N) :
    acc1 m c v hv = acc1 m c v' hv' := by subst e; rfl
theorem acc2_congr (c : Dev nD) {v v' : ℕ} (e : v = v') (hv : v < cfg0.N) (hv' : v' < cfg0.N) :
    acc2 m c v hv = acc2 m c v' hv' := by subst e; rfl

/-- The row minima after the tile at position `v`: one update of what the tile before left (`+∞` at a batch's first). -/
theorem acc1_nat (c : Dev nD) (v : ℕ) (hv : v < cfg0.N) (n : Fin 8192) (B : Fin 4) (hB : B.val = v / 128) :
    acc1 m c v hv (ix3 (0 : Fin 1) (0 : Fin 1) n)
      = if n.val / 1024 = v / 16 % 8 then
          min (if v % 128 = 0 then (⊤ : EReal) else acc1 m c (v - 1) (Nat.lt_of_le_of_lt (Nat.sub_le _ _) hv) (ix3 0 0 n))
            ((Cert.Spec.colTile (v % 16)).inf (fun mm => Cert.Spec.dK (cx m c) (cy m c) B n mm))
        else (if v % 128 = 0 then (⊤ : EReal) else acc1 m c (v - 1) (Nat.lt_of_le_of_lt (Nat.sub_le _ _) hv) (ix3 0 0 n)) := by
  have hb4 : v / 128 < 4 := by have h5 := lt_of_lt_of_eq hv (show cfg0.N = 512 from N_0); clear hB; omega
  have eB : B = ⟨v / 128, hb4⟩ := Fin.ext hB
  rw [eB]
  by_cases h0 : v % 128 = 0
  · rw [acc1_reset m c ⟨v, hv⟩ h0]
    unfold rowsAt
    rw [rowsStep m c ⟨v, hv⟩ _ n, Cert.KernelIdeal.Payload.pay3_apply]
    simp only [h0, if_true]
  · rw [acc1_step m c ⟨v, hv⟩ h0]
    unfold rowsAt
    rw [rowsStep m c ⟨v, hv⟩ _ n]
    simp only [h0, if_false]

/-- The column minima after the tile at position `v`. -/
theorem acc2_nat (c : Dev nD) (v : ℕ) (hv : v < cfg0.N) (mm : Fin 8192) (B : Fin 4) (hB : B.val = v / 128) :
    acc2 m c v hv (ix3 (0 : Fin 1) (0 : Fin 1) mm)
      = if mm.val / 512 = v % 16 then
          min (if v % 128 = 0 then (⊤ : EReal) else acc2 m c (v - 1) (Nat.lt_of_le_of_lt (Nat.sub_le _ _) hv) (ix3 0 0 mm))
            ((Cert.Spec.rowTile (v / 16 % 8)).inf (fun n => Cert.Spec.dK (cx m c) (cy m c) B n mm))
        else (if v % 128 = 0 then (⊤ : EReal) else acc2 m c (v - 1) (Nat.lt_of_le_of_lt (Nat.sub_le _ _) hv) (ix3 0 0 mm)) := by
  have hb4 : v / 128 < 4 := by have h5 := lt_of_lt_of_eq hv (show cfg0.N = 512 from N_0); clear hB; omega
  have eB : B = ⟨v / 128, hb4⟩ := Fin.ext hB
  rw [eB]
  by_cases h0 : v % 128 = 0
  · rw [acc2_reset m c ⟨v, hv⟩ h0]
    unfold colsAt
    rw [colsStep m c ⟨v, hv⟩ _ mm, Cert.KernelIdeal.Payload.pay4_apply]
    simp only [h0, if_true]
  · rw [acc2_step m c ⟨v, hv⟩ h0]
    unfold colsAt
    rw [colsStep m c ⟨v, hv⟩ _ mm]
    simp only [h0, if_false]

/-- After a batch's last tile the row-minima buffer holds, at row `n`, the minimum over all columns. -/
theorem acc1_last (c : Dev nD) (t : Fin cfg0.N) (ht : t.val % 128 = 127) (n : Fin 8192) (B : Fin 4) (hB : B.val = t.val / 128) :
    acc1 m c t.val t.isLt (ix3 (0 : Fin 1) (0 : Fin 1) n) = Finset.univ.inf (fun mm => Cert.Spec.dK (cx m c) (cy m c) B n mm) := by
  have hN : cfg0.N = 512 := N_0
  have ht5 : t.val < 512 := hN ▸ t.isLt
  have hb : B.val * 128 + 127 = t.val := by omega
  let A : ℕ → Fin 8192 → EReal := fun k n =>
    if h : B.val * 128 + k < cfg0.N then acc1 m c (B.val * 128 + k) h (ix3 0 0 n) else ⊤
  have hA : ∀ k (hk : k < 128) n, A k n = acc1 m c (B.val * 128 + k) (by rw [hN]; omega) (ix3 0 0 n) := fun k hk n =>
    dif_pos (by rw [hN]; omega)
  have key := Cert.Tiles.rows_acc (fun n mm => Cert.Spec.dK (cx m c) (cy m c) B n mm) A
    (fun n => by
      rw [hA 0 (by norm_num) n, acc1_nat m c _ _ n B (by omega)]
      have e1 : (B.val * 128 + 0) / 16 % 8 = 0 := by omega
      have e2 : (B.val * 128 + 0) % 16 = 0 := by omega
      have e3 : (B.val * 128 + 0) % 128 = 0 := by omega
      simp only [e1, e2, e3, if_true])
    (fun k hk n => by
      rw [hA (k + 1) hk n, hA k (by omega) n, acc1_nat m c _ _ n B (by omega)]
      have e1 : (B.val * 128 + (k + 1)) / 16 % 8 = (k + 1) / 16 := by omega
      have e2 : (B.val * 128 + (k + 1)) % 16 = (k + 1) % 16 := by omega
      have e3 : ¬(B.val * 128 + (k + 1)) % 128 = 0 := by omega
      rw [acc1_congr m c (show B.val * 128 + (k + 1) - 1 = B.val * 128 + k by omega) _ (by rw [hN]; omega)]
      simp only [e1, e2, e3, if_false])
    n
  rw [hA 127 (by norm_num) n] at key
  rw [← key]
  exact congrFun (acc1_congr m c hb.symm _ _) _

/-- After a batch's last tile the column-minima buffer holds, at column `mm`, the minimum over all rows. -/
theorem acc2_last (c : Dev nD) (t : Fin cfg0.N) (ht : t.val % 128 = 127) (mm : Fin 8192) (B : Fin 4) (hB : B.val = t.val / 128) :
    acc2 m c t.val t.isLt (ix3 (0 : Fin 1) (0 : Fin 1) mm) = Finset.univ.inf (fun n => Cert.Spec.dK (cx m c) (cy m c) B n mm) := by
  have hN : cfg0.N = 512 := N_0
  have ht5 : t.val < 512 := hN ▸ t.isLt
  have hb : B.val * 128 + 127 = t.val := by omega
  let A : ℕ → Fin 8192 → EReal := fun k mm =>
    if h : B.val * 128 + k < cfg0.N then acc2 m c (B.val * 128 + k) h (ix3 0 0 mm) else ⊤
  have hA : ∀ k (hk : k < 128) mm, A k mm = acc2 m c (B.val * 128 + k) (by rw [hN]; omega) (ix3 0 0 mm) := fun k hk mm =>
    dif_pos (by rw [hN]; omega)
  have key := Cert.Tiles.cols_acc (fun n mm => Cert.Spec.dK (cx m c) (cy m c) B n mm) A
    (fun mm => by
      rw [hA 0 (by norm_num) mm, acc2_nat m c _ _ mm B (by omega)]
      have e1 : (B.val * 128 + 0) / 16 % 8 = 0 := by omega
      have e2 : (B.val * 128 + 0) % 16 = 0 := by omega
      have e3 : (B.val * 128 + 0) % 128 = 0 := by omega
      simp only [e1, e2, e3, if_true])
    (fun k hk mm => by
      rw [hA (k + 1) hk mm, hA k (by omega) mm, acc2_nat m c _ _ mm B (by omega)]
      have e1 : (B.val * 128 + (k + 1)) / 16 % 8 = (k + 1) / 16 := by omega
      have e2 : (B.val * 128 + (k + 1)) % 16 = (k + 1) % 16 := by omega
      have e3 : ¬(B.val * 128 + (k + 1)) % 128 = 0 := by omega
      rw [acc2_congr m c (show B.val * 128 + (k + 1) - 1 = B.val * 128 + k by omega) _ (by rw [hN]; omega)]
      simp only [e1, e2, e3, if_false])
    mm
  rw [hA 127 (by norm_num) mm] at key
  rw [← key]
  exact congrFun (acc2_congr m c hb.symm _ _) _

end Cert.KernelIdeal.KernelValue

end
-- ==== Proof.FinalArrays.lean ====
/-
  From blocks to arrays: what the two arrays of nearest-point distances hold when the tiled region has run.

  Each of the two output windows shows, at grid point `t`, the whole row `(t / 128, 0, ·)` of its `[4, 1, 8192]` array, and
  writes it back at the last point of each batch (`t % 128 = 127`). The four write-backs are of four different rows and
  between them cover the array; so if at each of those points the running minima agree with row `t / 128` of a function
  `G`, the array ends holding `G`.
-/
import proofs.«160425_j23373212024987_2_alg».proof.Proof.Body
import proofs.«160425_j23373212024987_2_alg».proof.Proof.HostSide
import Idealize.ShloMosaic.Lib.Pipeline.Value

set_option maxRecDepth 16384

noncomputable section

namespace Cert.KernelIdeal.FinalArrays

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.HostSide

variable {F : FTy → Type} [FloatOps F]
variable (m : (ℓ : Loc nD τ sig) → Buf (Elt F) ℓ)

/-! ## The row minima (window 2) -/

/-- A point of the window's block has coordinates below its extents 1, 1, 8192. -/
theorem y2_lt (t : Fin cfg0.N) (y : ((cfg0.win 2).xblock (cfg0.grid.coords t)).Idx) :
    (y 0).val < 1 ∧ (y 1).val < 1 ∧ (y 2).val < 8192 := ⟨(y 0).isLt, (y 1).isLt, (y 2).isLt⟩

/-- An index of the array is in point `t`'s block iff each coordinate is in the block's range on its axis. -/
theorem mem_blk2 (t : Fin cfg0.N) (i : S4x1x8192.Idx) :
    i ∈ ((cfg0.win 2).blk t).view.set ↔ ∀ a : Fin 3, win0_2.index t a * S1x1x8192.size a ≤ (i a).val
      ∧ (i a).val < win0_2.index t a * S1x1x8192.size a + S1x1x8192.size a := by
  show i ∈ ((View.whole main_v3_0).slice (win0_2.rect t)).set ↔ _
  rw [View.set_slice_whole, Rect.mem_set_unit]
  exact Iff.rfl

/-- What a batch's last point writes back is row `t / 128` of `G`, when the running minima there are. -/
theorem flushed2_eq (c : Dev nD) (G : (⟨S4x1x8192, .f32⟩ : BufTy).Contents (Elt F))
    (hG : ∀ (t : Fin cfg0.N), t.val % 128 = 127 → ∀ n : Fin 8192,
      Body.acc1 m c t.val t.isLt (ix3 (0 : Fin 1) (0 : Fin 1) n)
        = G (ix3 (⟨t.val / 128, by have := t_lt t; omega⟩ : Fin 4) (0 : Fin 1) n))
    (t : Fin cfg0.N) (hf : (cfg0.win 2).flush t = true) :
    (Body.dats m 0 c).flushed 2 t = ((cfg0.win 2).blk t).view.read (Elt F) G := by
  have h127 : t.val % 128 = 127 := (flush0_2 t).mp hf
  obtain ⟨e0, e1, e2⟩ := index2_eq t
  show (cfg0.win 2).cut (grid0.coords t) ((Body.dats m 0 c).after 2 t) = _
  rw [Body.after0_2]
  funext y
  obtain ⟨l0, l1, l2⟩ := y2_lt t y
  rw [View.read_apply]
  show Body.acc1 m c t.val t.isLt ((cfg0.win 2).xinj (grid0.coords t) y) = G (((cfg0.win 2).blk t).view.emb y)
  have hy : (cfg0.win 2).xinj (grid0.coords t) y = ix3 (0 : Fin 1) (0 : Fin 1) (⟨(y 2).val, l2⟩ : Fin 8192) := by
    funext a
    apply Fin.ext
    match a with
    | ⟨0, _⟩ => show (y 0).val = 0; omega
    | ⟨1, _⟩ => show (y 1).val = 0; omega
    | ⟨2, _⟩ => rfl
  refine (congrArg (Body.acc1 m c t.val t.isLt) hy).trans ((hG t h127 _).trans (congrArg G ?_))
  funext a
  apply Fin.ext
  match a with
  | ⟨0, _⟩ => show t.val / 128 = win0_2.index t (0 : Fin 3) * 1 + 1 * (y 0).val; rw [e0]; omega
  | ⟨1, _⟩ => show 0 = win0_2.index t (1 : Fin 3) * 1 + 1 * (y 1).val; rw [e1]; omega
  | ⟨2, _⟩ => show (y 2).val = win0_2.index t (2 : Fin 3) * 8192 + 1 * (y 2).val; rw [e2]; omega

/-- Every index of the array is in the block of its batch's last point. -/
theorem cover2 (i : S4x1x8192.Idx) : ∃ t : Fin cfg0.N, (cfg0.win 2).flush t = true ∧ i ∈ ((cfg0.win 2).blk t).view.set := by
  have h0 : (i 0).val < 4 := (i 0).isLt
  have h1 : (i 1).val < 1 := (i 1).isLt
  have h2 : (i 2).val < 8192 := (i 2).isLt
  obtain ⟨t, ht⟩ : ∃ t : Fin cfg0.N, t.val = (i 0).val * 128 + 127 :=
    ⟨⟨(i 0).val * 128 + 127, by rw [show cfg0.N = 512 from N_0]; omega⟩, rfl⟩
  obtain ⟨e0, e1, e2⟩ := index2_eq t
  refine ⟨t, (flush0_2 t).mpr (by omega), ?_⟩
  rw [mem_blk2]
  intro a
  match a with
  | ⟨0, _⟩ =>
    show win0_2.index t (0 : Fin 3) * 1 ≤ (i 0).val ∧ (i 0).val < win0_2.index t (0 : Fin 3) * 1 + 1
    rw [e0]; omega
  | ⟨1, _⟩ =>
    show win0_2.index t (1 : Fin 3) * 1 ≤ (i 1).val ∧ (i 1).val < win0_2.index t (1 : Fin 3) * 1 + 1
    rw [e1]; omega
  | ⟨2, _⟩ =>
    show win0_2.index t (2 : Fin 3) * 8192 ≤ (i 2).val ∧ (i 2).val < win0_2.index t (2 : Fin 3) * 8192 + 8192
    rw [e2]; omega

/-- The array of row minima after the region: `G`, when each batch's last running minima are row `t / 128` of `G`. -/
theorem final2 (c : Dev nD) (G : (⟨S4x1x8192, .f32⟩ : BufTy).Contents (Elt F))
    (hG : ∀ (t : Fin cfg0.N), t.val % 128 = 127 → ∀ n : Fin 8192,
      Body.acc1 m c t.val t.isLt (ix3 (0 : Fin 1) (0 : Fin 1) n)
        = G (ix3 (⟨t.val / 128, by have := t_lt t; omega⟩ : Fin 4) (0 : Fin 1) n)) :
    (Body.dats m 0 c).arrAt 2 cfg0.N = G :=
  (Body.dats m 0 c).arrAt_eq_of_cover 2 G (flushed2_eq m c G hG) cover2

/-! ## The column minima (window 3) -/

/-- A point of the window's block has coordinates below its extents 1, 1, 8192. -/
theorem y3_lt (t : Fin cfg0.N) (y : ((cfg0.win 3).xblock (cfg0.grid.coords t)).Idx) :
    (y 0).val < 1 ∧ (y 1).val < 1 ∧ (y 2).val < 8192 := ⟨(y 0).isLt, (y 1).isLt, (y 2).isLt⟩

/-- An index of the array is in point `t`'s block iff each coordinate is in the block's range on its axis. -/
theorem mem_blk3 (t : Fin cfg0.N) (i : S4x1x8192.Idx) :
    i ∈ ((cfg0.win 3).blk t).view.set ↔ ∀ a : Fin 3, win0_3.index t a * S1x1x8192.size a ≤ (i a).val
      ∧ (i a).val < win0_3.index t a * S1x1x8192.size a + S1x1x8192.size a := by
  show i ∈ ((View.whole main_v3_1).slice (win0_3.rect t)).set ↔ _
  rw [View.set_slice_whole, Rect.mem_set_unit]
  exact Iff.rfl

/-- What a batch's last point writes back is row `t / 128` of `G`, when the running minima there are. -/
theorem flushed3_eq (c : Dev nD) (G : (⟨S4x1x8192, .f32⟩ : BufTy).Contents (Elt F))
    (hG : ∀ (t : Fin cfg0.N), t.val % 128 = 127 → ∀ n : Fin 8192,
      Body.acc2 m c t.val t.isLt (ix3 (0 : Fin 1) (0 : Fin 1) n)
        = G (ix3 (⟨t.val / 128, by have := t_lt t; omega⟩ : Fin 4) (0 : Fin 1) n))
    (t : Fin cfg0.N) (hf : (cfg0.win 3).flush t = true) :
    (Body.dats m 0 c).flushed 3 t = ((cfg0.win 3).blk t).view.read (Elt F) G := by
  have h127 : t.val % 128 = 127 := (flush0_3 t).mp hf
  obtain ⟨e0, e1, e2⟩ := index3_eq t
  show (cfg0.win 3).cut (grid0.coords t) ((Body.dats m 0 c).after 3 t) = _
  rw [Body.after0_3]
  funext y
  obtain ⟨l0, l1, l2⟩ := y3_lt t y
  rw [View.read_apply]
  show Body.acc2 m c t.val t.isLt ((cfg0.win 3).xinj (grid0.coords t) y) = G (((cfg0.win 3).blk t).view.emb y)
  have hy : (cfg0.win 3).xinj (grid0.coords t) y = ix3 (0 : Fin 1) (0 : Fin 1) (⟨(y 2).val, l2⟩ : Fin 8192) := by
    funext a
    apply Fin.ext
    match a with
    | ⟨0, _⟩ => show (y 0).val = 0; omega
    | ⟨1, _⟩ => show (y 1).val = 0; omega
    | ⟨2, _⟩ => rfl
  refine (congrArg (Body.acc2 m c t.val t.isLt) hy).trans ((hG t h127 _).trans (congrArg G ?_))
  funext a
  apply Fin.ext
  match a with
  | ⟨0, _⟩ => show t.val / 128 = win0_3.index t (0 : Fin 3) * 1 + 1 * (y 0).val; rw [e0]; omega
  | ⟨1, _⟩ => show 0 = win0_3.index t (1 : Fin 3) * 1 + 1 * (y 1).val; rw [e1]; omega
  | ⟨2, _⟩ => show (y 2).val = win0_3.index t (2 : Fin 3) * 8192 + 1 * (y 2).val; rw [e2]; omega

/-- Every index of the array is in the block of its batch's last point. -/
theorem cover3 (i : S4x1x8192.Idx) : ∃ t : Fin cfg0.N, (cfg0.win 3).flush t = true ∧ i ∈ ((cfg0.win 3).blk t).view.set := by
  have h0 : (i 0).val < 4 := (i 0).isLt
  have h1 : (i 1).val < 1 := (i 1).isLt
  have h2 : (i 2).val < 8192 := (i 2).isLt
  obtain ⟨t, ht⟩ : ∃ t : Fin cfg0.N, t.val = (i 0).val * 128 + 127 :=
    ⟨⟨(i 0).val * 128 + 127, by rw [show cfg0.N = 512 from N_0]; omega⟩, rfl⟩
  obtain ⟨e0, e1, e2⟩ := index3_eq t
  refine ⟨t, (flush0_3 t).mpr (by omega), ?_⟩
  rw [mem_blk3]
  intro a
  match a with
  | ⟨0, _⟩ =>
    show win0_3.index t (0 : Fin 3) * 1 ≤ (i 0).val ∧ (i 0).val < win0_3.index t (0 : Fin 3) * 1 + 1
    rw [e0]; omega
  | ⟨1, _⟩ =>
    show win0_3.index t (1 : Fin 3) * 1 ≤ (i 1).val ∧ (i 1).val < win0_3.index t (1 : Fin 3) * 1 + 1
    rw [e1]; omega
  | ⟨2, _⟩ =>
    show win0_3.index t (2 : Fin 3) * 8192 ≤ (i 2).val ∧ (i 2).val < win0_3.index t (2 : Fin 3) * 8192 + 8192
    rw [e2]; omega

/-- The array of column minima after the region: `G`, when each batch's last running minima are row `t / 128` of `G`. -/
theorem final3 (c : Dev nD) (G : (⟨S4x1x8192, .f32⟩ : BufTy).Contents (Elt F))
    (hG : ∀ (t : Fin cfg0.N), t.val % 128 = 127 → ∀ n : Fin 8192,
      Body.acc2 m c t.val t.isLt (ix3 (0 : Fin 1) (0 : Fin 1) n)
        = G (ix3 (⟨t.val / 128, by have := t_lt t; omega⟩ : Fin 4) (0 : Fin 1) n)) :
    (Body.dats m 0 c).arrAt 3 cfg0.N = G :=
  (Body.dats m 0 c).arrAt_eq_of_cover 3 G (flushed3_eq m c G hG) cover3

end Cert.KernelIdeal.FinalArrays

end
-- ==== Proof.RefSide.lean ====
/-
  The reference's result, read index by index, at the ideal instance (floats are extended reals).

  The reference forms, for every pair of a point `n` of the first cloud and a point `m` of the second, the squared
  distance `(|x_n|² + |y_m|²) - 2 (x_n·y_m)` clamped below at `0` (`cell_apply`); then the minimum of that over
  `m` for each `n`, and over `n` for each `m`. A minimum over one axis taken from `+∞` is the infimum over that
  axis's coordinates, so the two arrays of minima are `Cert.Spec.near1R` and `Cert.Spec.near2R` of the two clouds
  (`near1_apply`, `near2_apply`). What remains — each array summed, divided by `32768`, the two quotients added — is
  `tail` of those two arrays (`ref_value`).
-/
import proofs.«160425_j23373212024987_2_alg».proof.Proof.Gen.ReferenceIdeal.Read
import proofs.«160425_j23373212024987_2_alg».proof.Proof.Spec
import proofs.«160425_j23373212024987_2_alg».proof.Proof.Consts
import Idealize.ShloMosaic.Lib.ValueIdx
import Idealize.ShloMosaic.PureOps.Ideal.Laws
import Idealize.ShloMosaic.PureOps.Reduce

noncomputable section

namespace Cert.RefSide

open Cert.ReferenceIdeal Cert.ReferenceIdeal.Gen Cert.ReferenceIdeal.Read
open Idealize.ShloMosaic Idealize.ShloMosaic.ValueIdx Idealize.SL.Sem
open scoped BigOperators

/-! ## The two one-axis reductions' shape facts -/

theorem reduces_d2 : S4x8192x8192.Reduces [2] S4x8192 := by decide
theorem reduces_d1 : S4x8192x8192.Reduces [1] S4x8192 := by decide

theorem lift_d2 (b : Fin 4) (n : Fin 8192) (k : Fin (S4x8192x8192.size 2)) :
    reduces_d2.lift (ix2 b n) k = ix3 b n (⟨k.val, k.isLt⟩ : Fin 8192) := by
  funext c; apply Fin.ext
  fin_cases c <;> rfl

theorem lift_d1 (b : Fin 4) (m : Fin 8192) (k : Fin (S4x8192x8192.size 1)) :
    reduces_d1.lift (ix2 b m) k = ix3 b (⟨k.val, k.isLt⟩ : Fin 8192) m := by
  funext c; apply Fin.ext
  fin_cases c <;> rfl

/-! ## The operand indices of one cell -/

theorem idx_xx (b : Fin 4) (n m : Fin 8192) (k : Fin 3) :
    idx_main_v1 (idx_main_v5 (idx_main_v7 (ix3 b n m))) k = ix3 b n k := by
  funext a; apply Fin.ext
  fin_cases a <;> rfl

theorem idx_yy (b : Fin 4) (n m : Fin 8192) (k : Fin 3) :
    idx_main_v3 (idx_main_v6 (idx_main_v8 (ix3 b n m))) k = ix3 b m k := by
  funext a; apply Fin.ext
  fin_cases a <;> rfl

theorem idx_l (b : Fin 4) (n m : Fin 8192) (k : Fin 3) :
    lidx_main_v4 (ix3 b n m) k = ix3 b n k := by
  funext a; apply Fin.ext
  fin_cases a <;> rfl

theorem idx_r (b : Fin 4) (n m : Fin 8192) (k : Fin 3) :
    ridx_main_v4 (ix3 b n m) k = ix3 b m k := by
  funext a; apply Fin.ext
  fin_cases a <;> rfl

/-! ## One cell: the clamped squared distance -/

theorem cell_apply (X Y : (⟨S4x8192x3, .f32⟩ : BufTy).Contents (Elt Ideal)) (b : Fin 4) (n m : Fin 8192) :
    val_main_v14 (F := Ideal) X Y (ix3 b n m)
      = max (Cert.Spec.dR (fun b n d => X (ix3 b n d)) (fun b n d => Y (ix3 b n d)) b n m) 0 := by
  rw [val_main_v14_apply, val_main_v13_apply, val_main_cst_2_apply, val_main_v12_apply, val_main_v9_apply,
    val_main_v11_apply, val_main_v10_apply, val_main_cst_1_apply, val_main_v4_apply,
    val_main_v7_apply, val_main_v5_apply, val_main_v1_apply, val_main_cst_apply,
    val_main_v8_apply, val_main_v6_apply, val_main_v3_apply, val_main_cst_0_apply]
  simp only [val_main_v0_apply, val_main_v2_apply, idx_xx, idx_yy, idx_l, idx_r,
    Ideal.ofBits_def, Ideal.maximumf_def, Ideal.subf_def, Ideal.addf_def, Ideal.mulf_def,
    Cert.Consts.ofBits_zero, Cert.Consts.ofBits_two, zero_add]
  rfl

/-! ## The minimum over an axis -/

/-- The fold of `min` from `⊤` over all of an axis is the infimum over it. -/
theorem fold_min_top (f : Fin 8192 → EReal) :
    (Finset.univ : Finset (Fin 8192)).fold (FloatOps.minimumf (F := Ideal) (φ := .f32)) ⊤ f
      = Finset.univ.inf f := by
  rfl

theorem near1_apply (X Y : (⟨S4x8192x3, .f32⟩ : BufTy).Contents (Elt Ideal)) (b : Fin 4) (n : Fin 8192) :
    val_main_v15 (F := Ideal) X Y (ix2 b n)
      = Cert.Spec.near1R (fun b n d => X (ix3 b n d)) (fun b n d => Y (ix3 b n d)) b n := by
  unfold val_main_v15
  rw [Host.reduce_eq_fold_single FloatOps.minimumf _ _ reducesTo_S4x8192x8192_S4x8192_d2 reduces_d2 h_S_]
  have hf : (val_main_v14 (F := Ideal) X Y ∘ reduces_d2.lift (ix2 b n))
      = fun k : Fin 8192 => max (Cert.Spec.dR (fun b n d => X (ix3 b n d)) (fun b n d => Y (ix3 b n d)) b n k) 0 :=
    funext fun k => by
      show val_main_v14 (F := Ideal) X Y (reduces_d2.lift (ix2 b n) k) = _
      rw [lift_d2]; exact cell_apply X Y b n k
  rw [hf]
  show Finset.fold (FloatOps.minimumf (F := Ideal) (φ := .f32)) (Ideal.ofBits .f32 0x7F800000#32) _ _ = _
  rw [Cert.Consts.ofBits_top]
  exact fold_min_top _

theorem near2_apply (X Y : (⟨S4x8192x3, .f32⟩ : BufTy).Contents (Elt Ideal)) (b : Fin 4) (m : Fin 8192) :
    val_main_v16 (F := Ideal) X Y (ix2 b m)
      = Cert.Spec.near2R (fun b n d => X (ix3 b n d)) (fun b n d => Y (ix3 b n d)) b m := by
  unfold val_main_v16
  rw [Host.reduce_eq_fold_single FloatOps.minimumf _ _ reducesTo_S4x8192x8192_S4x8192_d1 reduces_d1 h_S_]
  have hf : (val_main_v14 (F := Ideal) X Y ∘ reduces_d1.lift (ix2 b m))
      = fun k : Fin 8192 => max (Cert.Spec.dR (fun b n d => X (ix3 b n d)) (fun b n d => Y (ix3 b n d)) b k m) 0 :=
    funext fun k => by
      show val_main_v14 (F := Ideal) X Y (reduces_d1.lift (ix2 b m) k) = _
      rw [lift_d1]; exact cell_apply X Y b k m
  rw [hf]
  show Finset.fold (FloatOps.minimumf (F := Ideal) (φ := .f32)) (Ideal.ofBits .f32 0x7F800000#32) _ _ = _
  rw [Cert.Consts.ofBits_top]
  exact fold_min_top _

/-! ## The closing operations -/

/-- The reference's closing operations as a function of the two arrays of nearest-point distances: each array summed
    from `0`, divided by `32768`, and the two quotients added. -/
def tail (D1 D2 : (⟨S4x8192, .f32⟩ : BufTy).Contents (Elt Ideal)) : (⟨S_, .f32⟩ : BufTy).Contents (Elt Ideal) :=
  addf
    (Host.divf (F := Ideal)
      (Host.reduceAdd (F := Ideal) D1 (constant (F := Ideal) S_ .f32 0x00000000#32) reducesTo_S4x8192_S_d0_1 h_S_)
      (constant (F := Ideal) S_ .f32 0x47000000#32))
    (Host.divf (F := Ideal)
      (Host.reduceAdd (F := Ideal) D2 (constant (F := Ideal) S_ .f32 0x00000000#32) reducesTo_S4x8192_S_d0_1 h_S_)
      (constant (F := Ideal) S_ .f32 0x47000000#32))

theorem ref_value (X Y : (⟨S4x8192x3, .f32⟩ : BufTy).Contents (Elt Ideal)) :
    val_main_v21 (F := Ideal) X Y
      = tail
          (fun i => Cert.Spec.near1R (fun b n d => X (ix3 b n d)) (fun b n d => Y (ix3 b n d)) (i 0) (i 1))
          (fun i => Cert.Spec.near2R (fun b n d => X (ix3 b n d)) (fun b n d => Y (ix3 b n d)) (i 0) (i 1)) := by
  have h1 : val_main_v15 (F := Ideal) X Y
      = fun i => Cert.Spec.near1R (fun b n d => X (ix3 b n d)) (fun b n d => Y (ix3 b n d)) (i 0) (i 1) :=
    funext fun i => (congrArg (val_main_v15 (F := Ideal) X Y) (eq_ix2 i)).trans (near1_apply X Y (i 0) (i 1))
  have h2 : val_main_v16 (F := Ideal) X Y
      = fun i => Cert.Spec.near2R (fun b n d => X (ix3 b n d)) (fun b n d => Y (ix3 b n d)) (i 0) (i 1) :=
    funext fun i => (congrArg (val_main_v16 (F := Ideal) X Y) (eq_ix2 i)).trans (near2_apply X Y (i 0) (i 1))
  unfold val_main_v21 val_main_v18 val_main_v20 val_main_v17 val_main_v19
    val_main_cst_5 val_main_cst_6 val_main_cst_7 val_main_cst_8 tail
  rw [h1, h2]

end Cert.RefSide

end
-- ==== Proof.Bridge.lean ====
/-
  The two programs' closing operations agree.

  After its tiled region the first program holds, for each point of either cloud, the minimum over the other cloud of
  the squared distance (first arrangement); it clamps that at `0`, which is `Cert.Spec.near1K` / `near2K`. On real
  coordinates those are `Cert.Spec.near1R` / `near2R`, the arrays the second program forms. From there both programs
  do the same thing — sum each array, divide by `32768`, add the two quotients — so their results are equal.
-/
import proofs.«160425_j23373212024987_2_alg».proof.Proof.HostSide
import proofs.«160425_j23373212024987_2_alg».proof.Proof.RefSide
import proofs.«160425_j23373212024987_2_alg».proof.Proof.Spec

noncomputable section

namespace Cert.Bridge

open Idealize.ShloMosaic Idealize.ShloMosaic.ValueIdx Idealize.SL.Sem

/-- The first program's clamped row minima are the nearest-point distances of the first cloud's points. -/
theorem clamp_near1 (G2 : (⟨Cert.KernelIdeal.S4x1x8192, .f32⟩ : BufTy).Contents (Elt Ideal)) (x y : Cert.Spec.Cloud)
    (hx : Cert.Spec.Finite x) (hy : Cert.Spec.Finite y)
    (h2 : ∀ (b : Fin 4) (n : Fin 8192),
      G2 (ix3 b (0 : Fin 1) n) = Finset.univ.inf (fun mm => Cert.Spec.dK x y b n mm)) :
    Cert.KernelIdeal.HostSide.clampK G2 = fun i => Cert.Spec.near1R x y (i 0) (i 1) := by
  funext i
  refine (congrArg (Cert.KernelIdeal.HostSide.clampK G2) (eq_ix2 i)).trans ?_
  refine (Cert.KernelIdeal.HostSide.clamp_apply G2 (i 0) (i 1)).trans ?_
  exact (congrArg (fun t : EReal => max t 0) (h2 (i 0) (i 1))).trans
    (congrFun (congrFun (Cert.Spec.near1K_eq hx hy) (i 0)) (i 1))

/-- The first program's clamped column minima are the nearest-point distances of the second cloud's points. -/
theorem clamp_near2 (G3 : (⟨Cert.KernelIdeal.S4x1x8192, .f32⟩ : BufTy).Contents (Elt Ideal)) (x y : Cert.Spec.Cloud)
    (hx : Cert.Spec.Finite x) (hy : Cert.Spec.Finite y)
    (h3 : ∀ (b : Fin 4) (mm : Fin 8192),
      G3 (ix3 b (0 : Fin 1) mm) = Finset.univ.inf (fun n => Cert.Spec.dK x y b n mm)) :
    Cert.KernelIdeal.HostSide.clampK G3 = fun i => Cert.Spec.near2R x y (i 0) (i 1) := by
  funext i
  refine (congrArg (Cert.KernelIdeal.HostSide.clampK G3) (eq_ix2 i)).trans ?_
  refine (Cert.KernelIdeal.HostSide.clamp_apply G3 (i 0) (i 1)).trans ?_
  exact (congrArg (fun t : EReal => max t 0) (h3 (i 0) (i 1))).trans
    (congrFun (congrFun (Cert.Spec.near2K_eq hx hy) (i 0)) (i 1))

/-- So the first program's result, as a function of the region's two arrays of minima, is the second program's, as a
    function of the nearest-point distances. -/
theorem tail_bridge (G2 G3 : (⟨Cert.KernelIdeal.S4x1x8192, .f32⟩ : BufTy).Contents (Elt Ideal)) (x y : Cert.Spec.Cloud)
    (hx : Cert.Spec.Finite x) (hy : Cert.Spec.Finite y)
    (h2 : ∀ (b : Fin 4) (n : Fin 8192),
      G2 (ix3 b (0 : Fin 1) n) = Finset.univ.inf (fun mm => Cert.Spec.dK x y b n mm))
    (h3 : ∀ (b : Fin 4) (mm : Fin 8192),
      G3 (ix3 b (0 : Fin 1) mm) = Finset.univ.inf (fun n => Cert.Spec.dK x y b n mm)) :
    Cert.KernelIdeal.HostSide.tailK G2 G3
      = Cert.RefSide.tail (fun i => Cert.Spec.near1R x y (i 0) (i 1)) (fun i => Cert.Spec.near2R x y (i 0) (i 1)) := by
  have e1 := clamp_near1 G2 x y hx hy h2
  have e2 := clamp_near2 G3 x y hx hy h3
  unfold Cert.KernelIdeal.HostSide.tailK Cert.KernelIdeal.HostSide.meanK Cert.RefSide.tail
  rw [e1, e2]

end Cert.Bridge

end
-- ==== Proof.Finite.lean ====
/-
  The precondition read back: when the printed predicate "every |input1| < +∞ and every |input2| < +∞" holds of two
  clouds of extended reals, every coordinate of both is a real number.

  The predicate compares the absolute value `max x (-x)` of each element with the constant whose bit pattern
  `0x7F800000` denotes `+∞`, reduces the comparisons by `and` over all three axes, and conjoins the two results. A
  conjunction that is 1 has both sides 1; a reduction by `and` that is 1 met only 1s; and `max x (-x) < ⊤` excludes
  `x = ⊤` and `x = ⊥`, leaving the reals.
-/
import proofs.«160425_j23373212024987_2_alg».proof.Pre_finite_inputs
import Idealize.ShloMosaic.PureOps.Ideal
import Idealize.ShloMosaic.Lib.ValueIdx
import Idealize.ShloMosaic.Lib.ReduceAll
import proofs.«160425_j23373212024987_2_alg».proof.Proof.Consts

noncomputable section

namespace Cert.Finite

open Idealize.ShloMosaic
open Cert.Pre_finite_inputs

/-- The rank-0 shape has exactly one index. -/
instance : Subsingleton S_.Idx := ⟨fun _ _ => funext fun d => d.elim0⟩

/-- An ordered "less than" that answered 1 is the strict order of the extended reals. -/
theorem lt_of_cmp_olt {x y : EReal} (h : Ideal.cmp .olt x y = 1#1) : x < y := by
  change BitVec.ofBool (decide (x < y)) = 1#1 at h
  by_contra hn
  rw [decide_eq_false hn] at h
  exact absurd h (by decide)

/-- An extended real whose absolute value is below `+∞` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One element of the comparison `|x| < +∞` being 1 makes that element real. -/
theorem real_of_elem [Facts] (X : FVec Ideal S4x8192x3 .f32) (i : S4x8192x3.Idx)
    (e : cmpf .olt (Host.absf X)
          (broadcastInDim S4x8192x3 ![] Facts.bcast_S_S4x8192x3 (constant (F := Ideal) S_ .f32 0x7F800000#32)) i = 1#1) :
    ∃ r : ℝ, X i = (r : EReal) := by
  have e' : Ideal.cmp .olt (max (X i) (-(X i))) (Ideal.ofBits .f32 0x7F800000#32) = 1#1 := e
  rw [Cert.Consts.ofBits_top] at e'
  exact real_of_abs_lt_top (X i) (lt_of_cmp_olt e')

/-- The precondition makes every coordinate of both inputs a real number. -/
theorem finite_of_pre [Cert.Pre_finite_inputs.Facts]
    (X Y : (⟨Cert.Pre_finite_inputs.S4x8192x3, .f32⟩ : BufTy).Contents (Elt Ideal))
    (h : Cert.Pre_finite_inputs.fn (F := Ideal) X Y = fun _ => 1#1) :
    (∀ i, ∃ r : ℝ, X i = (r : EReal)) ∧ (∀ i, ∃ r : ℝ, Y i = (r : EReal)) := by
  have h0 := congrFun h ValueIdx.ix0
  dsimp only [fn] at h0
  obtain ⟨hX, hY⟩ := IntOp.andi_eq_one.1 h0
  exact ⟨fun i => real_of_elem X i (Host.reduce_andi_all _ _ _ _ _ hX i),
         fun i => real_of_elem Y i (Host.reduce_andi_all _ _ _ _ _ hY i)⟩

end Cert.Finite

end
-- ==== Proof.lean ====
/-
  The certificate: both programs compute the Chamfer loss of two batched point clouds.

  For clouds `x`, `y` (four batches of 8192 points in three coordinates) let `d(b,n,m) = |x_n|² + |y_m|² - 2 x_n·y_m`.
  The result is `mean_{b,n} max(min_m d, 0) + mean_{b,m} max(min_n d, 0)`. The reference forms all `d`, clamps each at
  `0` and takes the minima. The kernel pre-scales the second cloud by `-2`, forms `d` tile by tile (1024 × 512) as
  `(|x|² + |s|²/4) + x·s`, keeps running row and column minima across the tiles of a batch starting from `+∞`, writes them
  back after the batch's last tile, and clamps the minima. On finite inputs the two arrangements of `d` are the same real
  number, the running minima over all tiles of a batch are the minima over all columns (rows), and clamping commutes with a
  minimum; the closing sums, divisions and addition are the same operations on both sides.

  The frames: each kernel program's launch is run with proof data that names both running-minimum buffers point by point;
  the reference has no kernel, and its frame is its run with the result dropped. The idealization rewrote nothing.
-/
import proofs.«160425_j23373212024987_2_alg».proof.Defs
import proofs.«160425_j23373212024987_2_alg».proof.Proof.Gen.Kernel
import proofs.«160425_j23373212024987_2_alg».proof.Proof.Gen.KernelIdeal
import proofs.«160425_j23373212024987_2_alg».proof.Proof.Gen.ReferenceIdeal
import proofs.«160425_j23373212024987_2_alg».proof.Proof.Gen.Pre_finite_inputs
import proofs.«160425_j23373212024987_2_alg».proof.Proof.Gen.ReferenceIdeal.Run
import proofs.«160425_j23373212024987_2_alg».proof.Proof.Gen.ReferenceIdeal.Read
import proofs.«160425_j23373212024987_2_alg».proof.Proof.Body
import proofs.«160425_j23373212024987_2_alg».proof.Proof.BodyK
import proofs.«160425_j23373212024987_2_alg».proof.Proof.KernelValue
import proofs.«160425_j23373212024987_2_alg».proof.Proof.FinalArrays
import proofs.«160425_j23373212024987_2_alg».proof.Proof.HostSide
import proofs.«160425_j23373212024987_2_alg».proof.Proof.RefSide
import proofs.«160425_j23373212024987_2_alg».proof.Proof.Bridge
import proofs.«160425_j23373212024987_2_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

/-! ## The kernel's result -/

section KernelSide

open Cert.KernelIdeal Cert.KernelIdeal.Gen Cert.KernelIdeal.TileValue

variable (m : (ℓ : Loc nD τ sig) → Buf (Elt Ideal) ℓ)

/-- The first result array: per batch and row, the minimum squared distance over all columns. -/
def rowMin (c : Dev nD) : (⟨S4x1x8192, .f32⟩ : BufTy).Contents (Elt Ideal) := fun i =>
  Finset.univ.inf (fun mm => Cert.Spec.dK (cx m c) (cy m c) (i 0) (i 2) mm)
/-- The second: per batch and column, the minimum over all rows. -/
def colMin (c : Dev nD) : (⟨S4x1x8192, .f32⟩ : BufTy).Contents (Elt Ideal) := fun i =>
  Finset.univ.inf (fun n => Cert.Spec.dK (cx m c) (cy m c) (i 0) n (i 2))

/-- The kernel program's run at the ideal instance, on finite clouds: the result is the reference's closing operations
    applied to the clamped minima of the second arrangement; the arguments end unchanged. -/
theorem kernel_run (ρ : Dev nD → PrngReg) (hfin : ∀ c, Cert.Spec.Finite (cx m c) ∧ Cert.Spec.Finite (cy m c)) :
    θ_run (Cert.KernelIdeal.defs (F := Ideal)) (onTc (τ := τ) (main (F := Ideal))) ⟨m, fun _ => 0, ρ⟩ (fun r => ∀ c : Dev nD,
      r.2.mem ((c.tc : Thread nD τ).loc main_v14)
          = Cert.RefSide.tail (fun i => Cert.Spec.near1R (cx m c) (cy m c) (i 0) (i 1)) (fun i => Cert.Spec.near2R (cx m c) (cy m c) (i 0) (i 1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run Cert.KernelIdeal.defs _ _).mono (fun _ h c =>
    ⟨((h c).2 main_v14 (Pipeline.mem_restRefs_of main_v14 (by decide) (by decide))).trans
        ((Cert.KernelIdeal.HostSide.tail_value m (Cert.KernelIdeal.Body.dats m) c).trans
          ((congrArg₂ Cert.KernelIdeal.HostSide.tailK
              (Cert.KernelIdeal.FinalArrays.final2 m c (rowMin m c)
                (fun t ht n => Cert.KernelIdeal.KernelValue.acc1_last m c t ht n _ rfl))
              (Cert.KernelIdeal.FinalArrays.final3 m c (colMin m c)
                (fun t ht mm => Cert.KernelIdeal.KernelValue.acc2_last m c t ht mm _ rfl))).trans
            (Cert.Bridge.tail_bridge (rowMin m c) (colMin m c) (cx m c) (cy m c) (hfin c).1 (hfin c).2
              (fun _ _ => rfl) (fun _ _ => rfl)))),
      ((h c).1 0).trans ((((Cert.KernelIdeal.Body.dats m) 0 c).arrAt_in 0 rfl _).trans
        ((Cert.KernelIdeal.Body.A_eq m c 0).trans (V_main_arg0 m c))),
      ((h c).2 main_arg1 (Pipeline.mem_restRefs_of main_arg1 (by decide) (by decide))).trans
        (W_main_arg1 m (Cert.KernelIdeal.Body.dats m) c)⟩)
    (Cert.KernelIdeal.Body.run_main (F := Ideal) m ρ)

end KernelSide

/-! ## The claims -/

theorem frame_k : Cert.frame_Kernel := fun m ρ _ => Cert.Kernel.Body.frame (F := Bits) m ρ
theorem frame_ki : Cert.frame_KernelIdeal := fun m ρ _ => Cert.KernelIdeal.Body.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On finite inputs both programs end at the same extended real. -/
theorem algebraic : Cert.algebraic_KernelIdeal_ReferenceIdeal := by
  intro m ρ m' ρ' hpre hagree
  have hfin : ∀ c, Cert.Spec.Finite (Cert.KernelIdeal.TileValue.cx m c) ∧ Cert.Spec.Finite (Cert.KernelIdeal.TileValue.cy m c) := fun c =>
    have h := Cert.Finite.finite_of_pre _ _ (hpre c)
    ⟨fun b n d => h.1 (ix3 b n d), fun b n d => h.2 (ix3 b n d)⟩
  refine ⟨_, kernel_run m ρ hfin, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.RefSide.ref_value, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
